-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x16384x4 : Shape := ⟨4, ![4, 8, 16384, 4]⟩
abbrev S4x16384x16 : Shape := ⟨3, ![4, 16384, 16]⟩
abbrev S4x16384x3 : Shape := ⟨3, ![4, 16384, 3]⟩
abbrev S_ : Shape := ⟨0, ![]⟩

class Facts : Prop where
  bcast_S_S4x8x16384x4 : S_.BroadcastsInDim S4x8x16384x4 (![] : Fin 0 → Fin S4x8x16384x4.rank)
  reducesTo_S4x8x16384x4_S_d0_1_2_3 : S4x8x16384x4.ReducesTo [0, 1, 2, 3] S_
  h_S_ : 0 < S_.numel
  bcast_S_S4x16384x3 : S_.BroadcastsInDim S4x16384x3 (![] : Fin 0 → Fin S4x16384x3.rank)
  reducesTo_S4x16384x3_S_d0_1_2 : S4x16384x3.ReducesTo [0, 1, 2] S_

variable [Facts]

def fn {F : FTy → Type} [FloatOps F] (main_arg0 : FVec F S4x8x16384x4 .f32) (main_arg1 : FVec F S4x8x16384x4 .f32) (main_arg2 : IVec S4x16384x16 32) (main_arg3 : FVec F S4x16384x3 .f32) : IVec S_ 1 :=
  let main_v0 : FVec F S4x8x16384x4 .f32 := Host.absf main_arg0
  let main_cst : FVec F S_ .f32 := constant S_ .f32 0x7F800000#32
  let main_v1 : FVec F S4x8x16384x4 .f32 := broadcastInDim S4x8x16384x4 ![] bcast_S_S4x8x16384x4 main_cst
  let main_v2 : IVec S4x8x16384x4 1 := cmpf .olt main_v0 main_v1
  let main_c : IVec S_ 1 := constantI S_ 1 1#1
  let main_v3 : IVec S_ 1 := (fun x v => Host.reduce IntOp.andi x v reducesTo_S4x8x16384x4_S_d0_1_2_3 h_S_) main_v2 main_c
  let main_v4 : FVec F S4x8x16384x4 .f32 := Host.absf main_arg1
  let main_cst_0 : FVec F S_ .f32 := constant S_ .f32 0x7F800000#32
  let main_v5 : FVec F S4x8x16384x4 .f32 := broadcastInDim S4x8x16384x4 ![] bcast_S_S4x8x16384x4 main_cst_0
  let main_v6 : IVec S4x8x16384x4 1 := cmpf .olt main_v4 main_v5
  let main_c_1 : IVec S_ 1 := constantI S_ 1 1#1
  let main_v7 : IVec S_ 1 := (fun x v => Host.reduce IntOp.andi x v reducesTo_S4x8x16384x4_S_d0_1_2_3 h_S_) main_v6 main_c_1
  let main_v8 : IVec S_ 1 := andi main_v3 main_v7
  let main_v9 : FVec F S4x16384x3 .f32 := Host.absf main_arg3
  let main_cst_2 : FVec F S_ .f32 := constant S_ .f32 0x7F800000#32
  let main_v10 : FVec F S4x16384x3 .f32 := broadcastInDim S4x16384x3 ![] bcast_S_S4x16384x3 main_cst_2
  let main_v11 : IVec S4x16384x3 1 := cmpf .olt main_v9 main_v10
  let main_c_3 : IVec S_ 1 := constantI S_ 1 1#1
  let main_v12 : IVec S_ 1 := (fun x v => Host.reduce IntOp.andi x v reducesTo_S4x16384x3_S_d0_1_2 h_S_) main_v11 main_c_3
  let main_v13 : IVec S_ 1 := andi main_v8 main_v12
  main_v13
-- ==== Kernel.lean ====
abbrev S4x8x16384x4 : Shape := ⟨4, ![4, 8, 16384, 4]⟩
abbrev S4x16384x16 : Shape := ⟨3, ![4, 16384, 16]⟩
abbrev S4x16384x3 : Shape := ⟨3, ![4, 16384, 3]⟩
abbrev S_ : Shape := ⟨0, ![]⟩
abbrev S4x16384x16x1 : Shape := ⟨4, ![4, 16384, 16, 1]⟩
abbrev S4x16384x16x3 : Shape := ⟨4, ![4, 16384, 16, 3]⟩
abbrev S4x16384x1x3 : Shape := ⟨4, ![4, 16384, 1, 3]⟩
abbrev S4x8x16384x16x4 : Shape := ⟨5, ![4, 8, 16384, 16, 4]⟩
abbrev S4x1x4 : Shape := ⟨3, ![4, 1, 4]⟩
abbrev S1x8x128x4 : Shape := ⟨4, ![1, 8, 128, 4]⟩
abbrev S1x8x128x16x4 : Shape := ⟨5, ![1, 8, 128, 16, 4]⟩
abbrev S1x128x16 : Shape := ⟨3, ![1, 128, 16]⟩
abbrev S1x1x4 : Shape := ⟨3, ![1, 1, 4]⟩
abbrev S8x128x4 : Shape := ⟨3, ![8, 128, 4]⟩
abbrev S1 : Shape := ⟨1, ![1]⟩
abbrev S1x1x1x1 : Shape := ⟨4, ![1, 1, 1, 1]⟩
abbrev S128x16 : Shape := ⟨2, ![128, 16]⟩
abbrev S1x128x16x1 : Shape := ⟨4, ![1, 128, 16, 1]⟩
abbrev S8x128x16x4 : Shape := ⟨4, ![8, 128, 16, 4]⟩
abbrev S8x128x1x4 : Shape := ⟨4, ![8, 128, 1, 4]⟩
abbrev S1x1x1x1x1 : Shape := ⟨5, ![1, 1, 1, 1, 1]⟩
abbrev S4 : Shape := ⟨1, ![4]⟩
abbrev S4x4 : Shape := ⟨2, ![4, 4]⟩
abbrev S4x1 : Shape := ⟨2, ![4, 1]⟩

abbrev nBuf : Space → Nat
  | .hbm => 83
  | .vmem => 13
  | .smem => 0
  | _ => 0

abbrev bufTy : (tb : Table) → Fin (tcTables nBuf tb) → BufTy
  | .hbm, ⟨0, _⟩ => ⟨S4x8x16384x4, .f32⟩
  | .hbm, ⟨1, _⟩ => ⟨S4x8x16384x4, .f32⟩
  | .hbm, ⟨2, _⟩ => ⟨S4x16384x16, .i32⟩
  | .hbm, ⟨3, _⟩ => ⟨S4x16384x3, .f32⟩
  | .hbm, ⟨4, _⟩ => ⟨S_, .i32⟩
  | .hbm, ⟨5, _⟩ => ⟨S4x16384x16, .i32⟩
  | .hbm, ⟨6, _⟩ => ⟨S4x16384x16, .i1⟩
  | .hbm, ⟨7, _⟩ => ⟨S_, .i32⟩
  | .hbm, ⟨8, _⟩ => ⟨S4x16384x16, .i32⟩
  | .hbm, ⟨9, _⟩ => ⟨S4x16384x16, .i32⟩
  | .hbm, ⟨10, _⟩ => ⟨S4x16384x16, .i32⟩
  | .hbm, ⟨11, _⟩ => ⟨S4x16384x16x1, .i32⟩
  | .hbm, ⟨12, _⟩ => ⟨S4x16384x16x3, .f32⟩
  | .hbm, ⟨13, _⟩ => ⟨S4x16384x1x3, .f32⟩
  | .hbm, ⟨14, _⟩ => ⟨S4x16384x16x3, .f32⟩
  | .hbm, ⟨15, _⟩ => ⟨S4x16384x16x3, .f32⟩
  | .hbm, ⟨16, _⟩ => ⟨S4x16384x16x3, .f32⟩
  | .hbm, ⟨17, _⟩ => ⟨S_, .f32⟩
  | .hbm, ⟨18, _⟩ => ⟨S4x16384x16, .f32⟩
  | .hbm, ⟨19, _⟩ => ⟨S_, .f32⟩
  | .hbm, ⟨20, _⟩ => ⟨S4x16384x16, .f32⟩
  | .hbm, ⟨21, _⟩ => ⟨S4x16384x16, .f32⟩
  | .hbm, ⟨22, _⟩ => ⟨S4x16384x16, .f32⟩
  | .hbm, ⟨23, _⟩ => ⟨S_, .f32⟩
  | .hbm, ⟨24, _⟩ => ⟨S4x16384x16, .f32⟩
  | .hbm, ⟨25, _⟩ => ⟨S4x16384x16, .f32⟩
  | .hbm, ⟨26, _⟩ => ⟨S_, .i32⟩
  | .hbm, ⟨27, _⟩ => ⟨S4x16384x16, .i32⟩
  | .hbm, ⟨28, _⟩ => ⟨S4x16384x16, .i1⟩
  | .hbm, ⟨29, _⟩ => ⟨S_, .i32⟩
  | .hbm, ⟨30, _⟩ => ⟨S4x16384x16, .i32⟩
  | .hbm, ⟨31, _⟩ => ⟨S4x16384x16, .i32⟩
  | .hbm, ⟨32, _⟩ => ⟨S4x16384x16, .i32⟩
  | .hbm, ⟨33, _⟩ => ⟨S4x16384x16x1, .i32⟩
  | .hbm, ⟨34, _⟩ => ⟨S4x8x16384x16x4, .f32⟩
  | .hbm, ⟨35, _⟩ => ⟨S_, .i32⟩
  | .hbm, ⟨36, _⟩ => ⟨S4x16384x16, .i32⟩
  | .hbm, ⟨37, _⟩ => ⟨S4x16384x16, .i1⟩
  | .hbm, ⟨38, _⟩ => ⟨S_, .i32⟩
  | .hbm, ⟨39, _⟩ => ⟨S4x16384x16, .i32⟩
  | .hbm, ⟨40, _⟩ => ⟨S4x16384x16, .i32⟩
  | .hbm, ⟨41, _⟩ => ⟨S4x16384x16, .i32⟩
  | .hbm, ⟨42, _⟩ => ⟨S4x16384x16x1, .i32⟩
  | .hbm, ⟨43, _⟩ => ⟨S4x8x16384x16x4, .f32⟩
  | .hbm, ⟨44, _⟩ => ⟨S4x1x4, .f32⟩
  | .hbm, ⟨45, _⟩ => ⟨S4x4, .f32⟩
  | .hbm, ⟨46, _⟩ => ⟨S4x1, .f32⟩
  | .hbm, ⟨47, _⟩ => ⟨S4, .f32⟩
  | .hbm, ⟨48, _⟩ => ⟨S4x1, .f32⟩
  | .hbm, ⟨49, _⟩ => ⟨S4, .f32⟩
  | .hbm, ⟨50, _⟩ => ⟨S4x1, .f32⟩
  | .hbm, ⟨51, _⟩ => ⟨S4, .f32⟩
  | .hbm, ⟨52, _⟩ => ⟨S4x1, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S1x8x128x4, .f32⟩
  | .local _ .vmem, ⟨1, _⟩ => ⟨S1x8x128x4, .f32⟩
  | .local _ .vmem, ⟨2, _⟩ => ⟨S1x8x128x4, .f32⟩
  | .local _ .vmem, ⟨3, _⟩ => ⟨S1x8x128x4, .f32⟩
  | .local _ .vmem, ⟨4, _⟩ => ⟨S1x8x128x16x4, .f32⟩
  | .local _ .vmem, ⟨5, _⟩ => ⟨S1x8x128x16x4, .f32⟩
  | .local _ .vmem, ⟨6, _⟩ => ⟨S1x8x128x16x4, .f32⟩
  | .local _ .vmem, ⟨7, _⟩ => ⟨S1x8x128x16x4, .f32⟩
  | .local _ .vmem, ⟨8, _⟩ => ⟨S1x128x16, .f32⟩
  | .local _ .vmem, ⟨9, _⟩ => ⟨S1x128x16, .f32⟩
  | .local _ .vmem, ⟨10, _⟩ => ⟨S1x1x4, .f32⟩
  | .local _ .vmem, ⟨11, _⟩ => ⟨S1x1x4, .f32⟩
  | .local _ .vmem, ⟨12, _⟩ => ⟨S1x1x4, .f32⟩
  | _, _ => ⟨S4x8x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 128], ![false, false]⟩

def k0_cond2 (i : grid0.Coords) : BitVec 1 :=
  let arg1 : BitVec 32 := BitVec.ofNat 32 (i 1).val
  let c127_i32 : BitVec 32 := 127#32
  let v56 : BitVec 1 := Scalar.cmpi .eq arg1 c127_i32
  let v57 : BitVec 32 := Scalar.extui v56
  let c0_i32_30 : BitVec 32 := 0#32
  let v58 : BitVec 1 := Scalar.cmpi .ne v57 c0_i32_30
  v58

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x16x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  reducesTo_S4x16384x16x3_S4x16384x16_d3 : S4x16384x16x3.ReducesTo [3] S4x16384x16
  h_S_ : 0 < S_.numel
  inb_S1x1x4_S1x1x4_0_0_0 : ∀ a, (![0, 0, 0] : Fin 3 → Nat) a + S1x1x4.size a ≤ S1x1x4.size a
  h_S1x1x4 : 0 < S1x1x4.numel
  shapeCasts_S1x1x4_S1x1x4 : S1x1x4.ShapeCasts S1x1x4
  inb_S1x8x128x4_S1x8x128x4_0_0_0_0 : ∀ a, (![0, 0, 0, 0] : Fin 4 → Nat) a + S1x8x128x4.size a ≤ S1x8x128x4.size a
  h_S1x8x128x4 : 0 < S1x8x128x4.numel
  shapeCasts_S1x8x128x4_S8x128x4 : S1x8x128x4.ShapeCasts S8x128x4
  shapeCasts_S8x128x4_S1x8x128x4 : S8x128x4.ShapeCasts S1x8x128x4
  reduces_S1x8x128x4_S1 : S1x8x128x4.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  shapeCasts_S128x16_S1x128x16x1 : S128x16.ShapeCasts S1x128x16x1
  inb_S1x8x128x16x4_S1x8x128x16x4_0_0_0_0_0 : ∀ a, (![0, 0, 0, 0, 0] : Fin 5 → Nat) a + S1x8x128x16x4.size a ≤ S1x8x128x16x4.size a
  h_S1x8x128x16x4 : 0 < S1x8x128x16x4.numel
  shapeCasts_S1x8x128x16x4_S8x128x16x4 : S1x8x128x16x4.ShapeCasts S8x128x16x4
  shapeCasts_S8x128x4_S8x128x1x4 : S8x128x4.ShapeCasts S8x128x1x4
  broadcasts_S8x128x1x4_S8x128x16x4 : S8x128x1x4.Broadcasts S8x128x16x4
  broadcasts_S1x128x16x1_S8x128x16x4 : S1x128x16x1.Broadcasts S8x128x16x4
  shapeCasts_S8x128x16x4_S1x8x128x16x4 : S8x128x16x4.ShapeCasts S1x8x128x16x4
  reduces_S1x8x128x16x4_S1 : S1x8x128x16x4.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  concatenates_S1_S1_S1_S1_S4_d0 : Shape.Concatenates [S1, S1, S1, S1] S4 0
  shapeCasts_S1x1x4_S4 : S1x1x4.ShapeCasts S4
  shapeCasts_S4_S1x1x4 : S4.ShapeCasts S1x1x4
  shapeCasts_S4x1x4_S4x4 : S4x1x4.ShapeCasts S4x4
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  reducesTo_S4_S_d0 : S4.ReducesTo [0] S_
  gather_S4x16384x3_S4x16384x16x1_S4x16384x16x3_3_1_0_0_1_3_113_wf : GatherDims.WF S4x16384x3 S4x16384x16x1 S4x16384x16x3 [3] [1] [0] [1] [0] 3 ![1, 1, 3]
  gather_S4x8x16384x4_S4x16384x16x1_S4x8x16384x16x4_14_2_0_0_2_3_1814_wf : GatherDims.WF S4x8x16384x4 S4x16384x16x1 S4x8x16384x16x4 [1, 4] [2] [0] [2] [0] 3 ![1, 8, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x4.size a ≤ S4x8x16384x4.size a
  hwx0_0 : ∀ i : grid0.Coords, EltTy.bits .f32 = 32 ∨ (Rect.block (s := S4x8x16384x4) S1x8x128x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x4.size a ≤ S4x8x16384x4.size a
  hwx0_1 : ∀ i : grid0.Coords, EltTy.bits .f32 = 32 ∨ (Rect.block (s := S4x8x16384x4) S1x8x128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128x16x4.size a ≤ S4x8x16384x16x4.size a
  hwx0_2 : ∀ i : grid0.Coords, EltTy.bits .f32 = 32 ∨ (Rect.block (s := S4x8x16384x16x4) S1x8x128x16x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128x16x4.size a ≤ S4x8x16384x16x4.size a
  hwx0_3 : ∀ i : grid0.Coords, EltTy.bits .f32 = 32 ∨ (Rect.block (s := S4x8x16384x16x4) S1x8x128x16x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x16.size a ≤ S4x16384x16.size a
  hwx0_4 : ∀ i : grid0.Coords, EltTy.bits .f32 = 32 ∨ (Rect.block (s := S4x16384x16) S1x128x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4.size a ≤ S4x1x4.size a
  hwx0_5 : ∀ i : grid0.Coords, EltTy.bits .f32 = 32 ∨ (Rect.block (s := S4x1x4) S1x1x4.size (cc0_transform_5 i) (hinb0_5 i)).WholeWords (EltTy.packing .f32)

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def gather_S4x8x16384x4_S4x16384x16x1_S4x8x16384x16x4_14_2_0_0_2_3_1814 : GatherDims S4x8x16384x4 S4x16384x16x1 S4x8x16384x16x4 where
  offsetDims := [1, 4]
  collapsedSliceDims := [2]
  operandBatchingDims := [0]
  startIndicesBatchingDims := [0]
  startIndexMap := [2]
  indexVectorDim := 3
  sliceSizes := ![1, 8, 1, 4]
  wf := gather_S4x8x16384x4_S4x16384x16x1_S4x8x16384x16x4_14_2_0_0_2_3_1814_wf

abbrev win0_0 : Pipeline.Window sig grid0 :=
  Pipeline.Window.ofSpec (Memref.whole main_arg0) S1x8x128x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x8x128x16x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x8x128x16x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x1x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x8x16384x4 : Shape := ⟨4, ![4, 8, 16384, 4]⟩
abbrev S4x16384x16 : Shape := ⟨3, ![4, 16384, 16]⟩
abbrev S4x16384x3 : Shape := ⟨3, ![4, 16384, 3]⟩
abbrev S4x524288 : Shape := ⟨2, ![4, 524288]⟩
abbrev S_ : Shape := ⟨0, ![]⟩
abbrev S4 : Shape := ⟨1, ![4]⟩
abbrev S4x16384x16x1 : Shape := ⟨4, ![4, 16384, 16, 1]⟩
abbrev S4x16384x16x3 : Shape := ⟨4, ![4, 16384, 16, 3]⟩
abbrev S4x16384x1x3 : Shape := ⟨4, ![4, 16384, 1, 3]⟩
abbrev S4x8x16384x16x4 : Shape := ⟨5, ![4, 8, 16384, 16, 4]⟩
abbrev S4x8x16384x1x4 : Shape := ⟨5, ![4, 8, 16384, 1, 4]⟩
abbrev S4x1x16384x16x1 : Shape := ⟨5, ![4, 1, 16384, 16, 1]⟩

abbrev nBuf : Space → Nat
  | .hbm => 122
  | .vmem => 0
  | .smem => 0
  | _ => 0

abbrev bufTy : (tb : Table) → Fin (tcTables nBuf tb) → BufTy
  | .hbm, ⟨0, _⟩ => ⟨S4x8x16384x4, .f32⟩
  | .hbm, ⟨1, _⟩ => ⟨S4x8x16384x4, .f32⟩
  | .hbm, ⟨2, _⟩ => ⟨S4x16384x16, .i32⟩
  | .hbm, ⟨3, _⟩ => ⟨S4x16384x3, .f32⟩
  | .hbm, ⟨4, _⟩ => ⟨S4x524288, .f32⟩
  | .hbm, ⟨5, _⟩ => ⟨S4x524288, .f32⟩
  | .hbm, ⟨6, _⟩ => ⟨S4x524288, .f32⟩
  | .hbm, ⟨7, _⟩ => ⟨S4x524288, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4x524288, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S4x16384x16, .i32⟩
  | .hbm, ⟨25, _⟩ => ⟨S4x16384x16, .i1⟩
  | .hbm, ⟨26, _⟩ => ⟨S_, .i32⟩
  | .hbm, ⟨27, _⟩ => ⟨S4x16384x16, .i32⟩
  | .hbm, ⟨28, _⟩ => ⟨S4x16384x16, .i32⟩
  | .hbm, ⟨29, _⟩ => ⟨S4x16384x16, .i32⟩
  | .hbm, ⟨30, _⟩ => ⟨S4x16384x16x1, .i32⟩
  | .hbm, ⟨31, _⟩ => ⟨S4x16384x16x3, .f32⟩
  | .hbm, ⟨32, _⟩ => ⟨S4x16384x1x3, .f32⟩
  | .hbm, ⟨33, _⟩ => ⟨S4x16384x16x3, .f32⟩
  | .hbm, ⟨34, _⟩ => ⟨S4x16384x16x3, .f32⟩
  | .hbm, ⟨35, _⟩ => ⟨S4x16384x16x3, .f32⟩
  | .hbm, ⟨36, _⟩ => ⟨S_, .f32⟩
  | .hbm, ⟨37, _⟩ => ⟨S4x16384x16, .f32⟩
  | .hbm, ⟨38, _⟩ => ⟨S_, .f32⟩
  | .hbm, ⟨39, _⟩ => ⟨S4x16384x16, .f32⟩
  | .hbm, ⟨40, _⟩ => ⟨S4x16384x16, .f32⟩
  | .hbm, ⟨41, _⟩ => ⟨S4x16384x16, .f32⟩
  | .hbm, ⟨42, _⟩ => ⟨S_, .f32⟩
  | .hbm, ⟨43, _⟩ => ⟨S4x16384x16, .f32⟩
  | .hbm, ⟨44, _⟩ => ⟨S4x16384x16, .f32⟩
  | .hbm, ⟨45, _⟩ => ⟨S_, .i32⟩
  | .hbm, ⟨46, _⟩ => ⟨S4x16384x16, .i32⟩
  | .hbm, ⟨47, _⟩ => ⟨S4x16384x16, .i1⟩
  | .hbm, ⟨48, _⟩ => ⟨S_, .i32⟩
  | .hbm, ⟨49, _⟩ => ⟨S4x16384x16, .i32⟩
  | .hbm, ⟨50, _⟩ => ⟨S4x16384x16, .i32⟩
  | .hbm, ⟨51, _⟩ => ⟨S4x16384x16, .i32⟩
  | .hbm, ⟨52, _⟩ => ⟨S4x16384x16x1, .i32⟩
  | .hbm, ⟨53, _⟩ => ⟨S4x8x16384x16x4, .f32⟩
  | .hbm, ⟨54, _⟩ => ⟨S4x8x16384x1x4, .f32⟩
  | .hbm, ⟨55, _⟩ => ⟨S4x8x16384x16x4, .f32⟩
  | .hbm, ⟨56, _⟩ => ⟨S4x8x16384x16x4, .f32⟩
  | .hbm, ⟨57, _⟩ => ⟨S4x8x16384x16x4, .f32⟩
  | .hbm, ⟨58, _⟩ => ⟨S4x1x16384x16x1, .f32⟩
  | .hbm, ⟨59, _⟩ => ⟨S4x8x16384x16x4, .f32⟩
  | .hbm, ⟨60, _⟩ => ⟨S4x8x16384x16x4, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .i32⟩
  | .hbm, ⟨67, _⟩ => ⟨S4x16384x16, .i32⟩
  | .hbm, ⟨68, _⟩ => ⟨S4x16384x16, .i1⟩
  | .hbm, ⟨69, _⟩ => ⟨S_, .i32⟩
  | .hbm, ⟨70, _⟩ => ⟨S4x16384x16, .i32⟩
  | .hbm, ⟨71, _⟩ => ⟨S4x16384x16, .i32⟩
  | .hbm, ⟨72, _⟩ => ⟨S4x16384x16, .i32⟩
  | .hbm, ⟨73, _⟩ => ⟨S4x16384x16x1, .i32⟩
  | .hbm, ⟨74, _⟩ => ⟨S4x16384x16x3, .f32⟩
  | .hbm, ⟨75, _⟩ => ⟨S4x16384x1x3, .f32⟩
  | .hbm, ⟨76, _⟩ => ⟨S4x16384x16x3, .f32⟩
  | .hbm, ⟨77, _⟩ => ⟨S4x16384x16x3, .f32⟩
  | .hbm, ⟨78, _⟩ => ⟨S4x16384x16x3, .f32⟩
  | .hbm, ⟨79, _⟩ => ⟨S_, .f32⟩
  | .hbm, ⟨80, _⟩ => ⟨S4x16384x16, .f32⟩
  | .hbm, ⟨81, _⟩ => ⟨S_, .f32⟩
  | .hbm, ⟨82, _⟩ => ⟨S4x16384x16, .f32⟩
  | .hbm, ⟨83, _⟩ => ⟨S4x16384x16, .f32⟩
  | .hbm, ⟨84, _⟩ => ⟨S4x16384x16, .f32⟩
  | .hbm, ⟨85, _⟩ => ⟨S_, .f32⟩
  | .hbm, ⟨86, _⟩ => ⟨S4x16384x16, .f32⟩
  | .hbm, ⟨87, _⟩ => ⟨S4x16384x16, .f32⟩
  | .hbm, ⟨88, _⟩ => ⟨S_, .i32⟩
  | .hbm, ⟨89, _⟩ => ⟨S4x16384x16, .i32⟩
  | .hbm, ⟨90, _⟩ => ⟨S4x16384x16, .i1⟩
  | .hbm, ⟨91, _⟩ => ⟨S_, .i32⟩
  | .hbm, ⟨92, _⟩ => ⟨S4x16384x16, .i32⟩
  | .hbm, ⟨93, _⟩ => ⟨S4x16384x16, .i32⟩
  | .hbm, ⟨94, _⟩ => ⟨S4x16384x16, .i32⟩
  | .hbm, ⟨95, _⟩ => ⟨S4x16384x16x1, .i32⟩
  | .hbm, ⟨96, _⟩ => ⟨S4x8x16384x16x4, .f32⟩
  | .hbm, ⟨97, _⟩ => ⟨S4x8x16384x1x4, .f32⟩
  | .hbm, ⟨98, _⟩ => ⟨S4x8x16384x16x4, .f32⟩
  | .hbm, ⟨99, _⟩ => ⟨S4x8x16384x16x4, .f32⟩
  | .hbm, ⟨100, _⟩ => ⟨S4x8x16384x16x4, .f32⟩
  | .hbm, ⟨101, _⟩ => ⟨S4x1x16384x16x1, .f32⟩
  | .hbm, ⟨102, _⟩ => ⟨S4x8x16384x16x4, .f32⟩
  | .hbm, ⟨103, _⟩ => ⟨S4x8x16384x16x4, .f32⟩
  | .hbm, ⟨104, _⟩ => ⟨S_, .f32⟩
  | .hbm, ⟨105, _⟩ => ⟨S4, .f32⟩
  | .hbm, ⟨106, _⟩ => ⟨S_, .f32⟩
  | .hbm, ⟨107, _⟩ => ⟨S4, .f32⟩
  | .hbm, ⟨108, _⟩ => ⟨S4, .f32⟩
  | .hbm, ⟨109, _⟩ => ⟨S4, .f32⟩
  | .hbm, ⟨110, _⟩ => ⟨S4, .f32⟩
  | .hbm, ⟨111, _⟩ => ⟨S_, .f32⟩
  | .hbm, ⟨112, _⟩ => ⟨S4, .f32⟩
  | .hbm, ⟨113, _⟩ => ⟨S4, .f32⟩
  | .hbm, ⟨114, _⟩ => ⟨S4, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S4x8x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_20 : Ref sig .tc := ⟨.hbm, 115, rfl⟩
abbrev main_v83 : Ref sig .tc := ⟨.hbm, 116, rfl⟩
abbrev main_cst_21 : Ref sig .tc := ⟨.hbm, 117, rfl⟩
abbrev main_v84 : Ref sig .tc := ⟨.hbm, 118, rfl⟩
abbrev main_cst_22 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  shapeCasts_S4x8x16384x4_S4x524288 : S4x8x16384x4.ShapeCasts S4x524288
  reducesTo_S4x524288_S4_d1 : S4x524288.ReducesTo [1] S4
  h_S_ : 0 < S_.numel
  bcast_S_S4 : S_.BroadcastsInDim S4 (![] : Fin 0 → Fin S4.rank)
  reducesTo_S4_S_d0 : S4.ReducesTo [0] S_
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  reducesTo_S4x16384x16x3_S4x16384x16_d3 : S4x16384x16x3.ReducesTo [3] S4x16384x16
  bcast_S4x8x16384x4_S4x8x16384x1x4_0_1_2_4 : S4x8x16384x4.BroadcastsInDim S4x8x16384x1x4 (![0, 1, 2, 4] : Fin 4 → Fin S4x8x16384x1x4.rank)
  bcast_S4x8x16384x1x4_S4x8x16384x16x4_0_1_2_3_4 : S4x8x16384x1x4.BroadcastsInDim S4x8x16384x16x4 (![0, 1, 2, 3, 4] : Fin 5 → Fin S4x8x16384x16x4.rank)
  bcast_S4x16384x16_S4x1x16384x16x1_0_2_3 : S4x16384x16.BroadcastsInDim S4x1x16384x16x1 (![0, 2, 3] : Fin 3 → Fin S4x1x16384x16x1.rank)
  bcast_S4x1x16384x16x1_S4x8x16384x16x4_0_1_2_3_4 : S4x1x16384x16x1.BroadcastsInDim S4x8x16384x16x4 (![0, 1, 2, 3, 4] : Fin 5 → Fin S4x8x16384x16x4.rank)
  reducesTo_S4x8x16384x16x4_S4_d1_2_3_4 : S4x8x16384x16x4.ReducesTo [1, 2, 3, 4] S4
  gather_S4x16384x3_S4x16384x16x1_S4x16384x16x3_3_1_0_0_1_3_113_wf : GatherDims.WF S4x16384x3 S4x16384x16x1 S4x16384x16x3 [3] [1] [0] [1] [0] 3 ![1, 1, 3]
  gather_S4x8x16384x4_S4x16384x16x1_S4x8x16384x16x4_14_2_0_0_2_3_1814_wf : GatherDims.WF S4x8x16384x4 S4x16384x16x1 S4x8x16384x16x4 [1, 4] [2] [0] [2] [0] 3 ![1, 8, 1, 4]

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def gather_S4x8x16384x4_S4x16384x16x1_S4x8x16384x16x4_14_2_0_0_2_3_1814 : GatherDims S4x8x16384x4 S4x16384x16x1 S4x8x16384x16x4 where
  offsetDims := [1, 4]
  collapsedSliceDims := [2]
  operandBatchingDims := [0]
  startIndicesBatchingDims := [0]
  startIndexMap := [2]
  indexVectorDim := 3
  sliceSizes := ![1, 8, 1, 4]
  wf := gather_S4x8x16384x4_S4x16384x16x1_S4x8x16384x16x4_14_2_0_0_2_3_1814_wf

class Facts : Prop extends Facts₀ where

variable [Facts]
-- ==== Proof.KPieces.lean ====
/-
  What one grid point leaves behind.  The body adds to a 1×1×4 accumulator row the point's four partial sums; at the
  first point of a batch it first clears the row, and at the last it also copies the row to the output block.  So
  whatever the case, the row after the point is `step` of the point's five input blocks and of the row before (the
  cleared row at a batch's first point), and at a batch's last point the output block holds the same.
-/
import proofs.«146281_j26474178412703_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Sobolev.Kernel

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The accumulator row after a point, from the point's input blocks and the row before: the row plus the four partial
    sums of the blocks. -/
def step (x0 : Vec F S1x8x128x4 .f32) (x1 : Vec F S1x8x128x4 .f32) (x2 : Vec F S1x8x128x16x4 .f32) (x3 : Vec F S1x8x128x16x4 .f32) (x4 : Vec F S1x128x16 .f32) (acc : Vec F S1x1x4 .f32) : Vec F S1x1x4 .f32 :=
  k0_pay1 (k0_pay5 x0 x1) (k0_pay6 x1) (k0_pay7 x4) (k0_pay8 x1 x3) (k0_pay9 x0 x2) acc

/-- A middle point of a batch: the row becomes `step` of the row before. -/
theorem sout_B (c : Dev nD) (i : grid0.Coords) (arg2 : Memref sig .tc .vmem S1x8x128x4 .f32) (harg2 : arg2.IsWhole) (arg3 : Memref sig .tc .vmem S1x8x128x4 .f32) (harg3 : arg3.IsWhole) (arg4 : Memref sig .tc .vmem S1x8x128x16x4 .f32) (harg4 : arg4.IsWhole) (arg5 : Memref sig .tc .vmem S1x8x128x16x4 .f32) (harg5 : arg5.IsWhole) (arg6 : Memref sig .tc .vmem S1x128x16 .f32) (harg6 : arg6.IsWhole) (arg7 : Memref sig .tc .vmem S1x1x4 .f32) (harg7 : arg7.IsWhole) (arg8 : Memref sig .tc .vmem S1x1x4 .f32) (harg8 : arg8.IsWhole) (hc0 : ¬cond0_0 i) (hc1 : ¬cond0_1 i)
    (x0 : Vec F S1x8x128x4 .f32) (x1 : Vec F S1x8x128x4 .f32) (x2 : Vec F S1x8x128x16x4 .f32) (x3 : Vec F S1x8x128x16x4 .f32) (x4 : Vec F S1x128x16 .f32) (xs0 : Vec F S1x1x4 .f32) :
    sout0_B_0 c i arg2 harg2 arg3 harg3 arg4 harg4 arg5 harg5 arg6 harg6 arg7 harg7 arg8 harg8 hc0 hc1 x0 x1 x2 x3 x4 xs0 = step x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x1x4) hz3, View.ld_unit_zero (S := S1x8x128x4) hz4, View.ld_unit_zero (S := S1x8x128x16x4) hz5, View.ld_unit_zero (S := S1x128x16) hz3]
  rfl

/-- The last point of a batch: the row becomes `step` of the row before, -/
theorem sout_C (c : Dev nD) (i : grid0.Coords) (arg2 : Memref sig .tc .vmem S1x8x128x4 .f32) (harg2 : arg2.IsWhole) (arg3 : Memref sig .tc .vmem S1x8x128x4 .f32) (harg3 : arg3.IsWhole) (arg4 : Memref sig .tc .vmem S1x8x128x16x4 .f32) (harg4 : arg4.IsWhole) (arg5 : Memref sig .tc .vmem S1x8x128x16x4 .f32) (harg5 : arg5.IsWhole) (arg6 : Memref sig .tc .vmem S1x128x16 .f32) (harg6 : arg6.IsWhole) (arg7 : Memref sig .tc .vmem S1x1x4 .f32) (harg7 : arg7.IsWhole) (arg8 : Memref sig .tc .vmem S1x1x4 .f32) (harg8 : arg8.IsWhole) (hc0 : ¬cond0_0 i) (hc1 : cond0_1 i)
    (x0 : Vec F S1x8x128x4 .f32) (x1 : Vec F S1x8x128x4 .f32) (x2 : Vec F S1x8x128x16x4 .f32) (x3 : Vec F S1x8x128x16x4 .f32) (x4 : Vec F S1x128x16 .f32) (xs0 : Vec F S1x1x4 .f32) :
    sout0_C_0 c i arg2 harg2 arg3 harg3 arg4 harg4 arg5 harg5 arg6 harg6 arg7 harg7 arg8 harg8 hc0 hc1 x0 x1 x2 x3 x4 xs0 = step x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x1x4) hz3, View.ld_unit_zero (S := S1x8x128x4) hz4, View.ld_unit_zero (S := S1x8x128x16x4) hz5, View.ld_unit_zero (S := S1x128x16) hz3]
  rfl

/-- and the output block is written with the same row. -/
theorem out_C (c : Dev nD) (i : grid0.Coords) (arg2 : Memref sig .tc .vmem S1x8x128x4 .f32) (harg2 : arg2.IsWhole) (arg3 : Memref sig .tc .vmem S1x8x128x4 .f32) (harg3 : arg3.IsWhole) (arg4 : Memref sig .tc .vmem S1x8x128x16x4 .f32) (harg4 : arg4.IsWhole) (arg5 : Memref sig .tc .vmem S1x8x128x16x4 .f32) (harg5 : arg5.IsWhole) (arg6 : Memref sig .tc .vmem S1x128x16 .f32) (harg6 : arg6.IsWhole) (arg7 : Memref sig .tc .vmem S1x1x4 .f32) (harg7 : arg7.IsWhole) (arg8 : Memref sig .tc .vmem S1x1x4 .f32) (harg8 : arg8.IsWhole) (hc0 : ¬cond0_0 i) (hc1 : cond0_1 i)
    (x0 : Vec F S1x8x128x4 .f32) (x1 : Vec F S1x8x128x4 .f32) (x2 : Vec F S1x8x128x16x4 .f32) (x3 : Vec F S1x8x128x16x4 .f32) (x4 : Vec F S1x128x16 .f32) (xs0 : Vec F S1x1x4 .f32) :
    out0_C_5 c i arg2 harg2 arg3 harg3 arg4 harg4 arg5 harg5 arg6 harg6 arg7 harg7 arg8 harg8 hc0 hc1 x0 x1 x2 x3 x4 xs0 = step x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S1x1x4) _ hz3]
  simp only [View.readAt_eq_ld, harg2.read_unread, harg3.read_unread, harg4.read_unread, harg5.read_unread, harg6.read_unread, harg7.read_unread, harg8.read_unread, View.ld_unit_zero (S := S1x1x4) hz3, View.ld_unit_zero (S := S1x8x128x4) hz4, View.ld_unit_zero (S := S1x8x128x16x4) hz5, View.ld_unit_zero (S := S1x128x16) hz3]
  rfl

/-- The first point of a batch: the row is cleared first, so it becomes `step` of the cleared row. -/
theorem sout_A (c : Dev nD) (i : grid0.Coords) (arg2 : Memref sig .tc .vmem S1x8x128x4 .f32) (harg2 : arg2.IsWhole) (arg3 : Memref sig .tc .vmem S1x8x128x4 .f32) (harg3 : arg3.IsWhole) (arg4 : Memref sig .tc .vmem S1x8x128x16x4 .f32) (harg4 : arg4.IsWhole) (arg5 : Memref sig .tc .vmem S1x8x128x16x4 .f32) (harg5 : arg5.IsWhole) (arg6 : Memref sig .tc .vmem S1x128x16 .f32) (harg6 : arg6.IsWhole) (arg7 : Memref sig .tc .vmem S1x1x4 .f32) (harg7 : arg7.IsWhole) (arg8 : Memref sig .tc .vmem S1x1x4 .f32) (harg8 : arg8.IsWhole) (hc0 : cond0_0 i) (hc1 : ¬cond0_1 i)
    (x0 : Vec F S1x8x128x4 .f32) (x1 : Vec F S1x8x128x4 .f32) (x2 : Vec F S1x8x128x16x4 .f32) (x3 : Vec F S1x8x128x16x4 .f32) (x4 : Vec F S1x128x16 .f32) :
    sout0_A_0 c i arg2 harg2 arg3 harg3 arg4 harg4 arg5 harg5 arg6 harg6 arg7 harg7 arg8 harg8 hc0 hc1 x0 x1 x2 x3 x4 = step x0 x1 x2 x3 x4 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1x4) hz3, View.readCov_unit_zero (S := S1x1x4) _ hz3]
  simp only [View.readAt_eq_ld, harg2.read_unread, harg3.read_unread, harg4.read_unread, harg5.read_unread, harg6.read_unread, harg7.read_unread, harg8.read_unread, View.ld_unit_zero (S := S1x1x4) hz3, View.ld_unit_zero (S := S1x8x128x4) hz4, View.ld_unit_zero (S := S1x8x128x16x4) hz5, View.ld_unit_zero (S := S1x128x16) hz3]
  rfl

end Sobolev.Kernel

end
-- ==== Proof.Spec.lean ====
/-
  The index vocabulary of the Sobolev loss: a field array is [batch 4, time 8, point 16384, channel 4], a gathered
  neighbour array has one more axis (16 neighbours) before the channel, a distance array is [batch, point, neighbour].
  A neighbour entry sits above one field entry (same batch, time, point, channel) and over one distance entry (same
  batch, point, neighbour).  The kernel walks the points in 128 tiles of 128; the reference flattens
  (time, point, channel) to one axis of 524288.  Both are re-indexings of "all entries of batch b".
-/
import Idealize.ShloMosaic.Lib.ValueIdx
import Idealize.ShloMosaic.PureOps.Ideal

noncomputable section

namespace Sobolev

open Idealize.ShloMosaic Idealize.ShloMosaic.ValueIdx

/-- The field arrays' shape, the neighbour arrays', the distance array's. -/
abbrev A4 : Shape := ⟨4, ![4, 8, 16384, 4]⟩
abbrev A5 : Shape := ⟨5, ![4, 8, 16384, 16, 4]⟩
abbrev A3 : Shape := ⟨3, ![4, 16384, 16]⟩
/-- One tile of each: one batch, 128 points. -/
abbrev B4 : Shape := ⟨4, ![1, 8, 128, 4]⟩
abbrev B5 : Shape := ⟨5, ![1, 8, 128, 16, 4]⟩
abbrev B3 : Shape := ⟨3, ![1, 128, 16]⟩

/-- The field entry a neighbour entry is compared with: same batch, time, point and channel. -/
def under (z : A5.Idx) : A4.Idx := ix4 (z 0) (z 1) (z 2) (z 4)
/-- The distance a neighbour entry is divided by: same batch, point and neighbour. -/
def distAt (z : A5.Idx) : A3.Idx := ix3 (z 0) (z 2) (z 3)
/-- The same two maps inside a tile. -/
def underT (z : B5.Idx) : B4.Idx := ix4 (z 0) (z 1) (z 2) (z 4)
def distAtT (z : B5.Idx) : B3.Idx := ix3 (z 0) (z 2) (z 3)

/-- All field entries of batch `b`, all neighbour entries of batch `b`. -/
def batch4 (b : Fin 4) : Finset A4.Idx := Finset.univ.filter fun i => (i 0).val = b.val
def batch5 (b : Fin 4) : Finset A5.Idx := Finset.univ.filter fun z => (z 0).val = b.val

/-- Point `r` of tile `n`. -/
def row (n : Fin 128) (r : Fin 128) : Fin 16384 := ⟨n.val * 128 + r.val, by have := n.isLt; have := r.isLt; omega⟩

/-- Entry `y` of tile `n` of batch `b`, in the whole array. -/
def tile4 (b : Fin 4) (n : Fin 128) (y : B4.Idx) : A4.Idx := ix4 b (y 1) (row n (y 2)) (y 3)
def tile5 (b : Fin 4) (n : Fin 128) (z : B5.Idx) : A5.Idx := ix5 b (z 1) (row n (z 2)) (z 3) (z 4)
def tile3 (b : Fin 4) (n : Fin 128) (w : B3.Idx) : A3.Idx := ix3 b (row n (w 1)) (w 2)

/-- Position `k` of the flattened (time, point, channel) axis of batch `b`. -/
def flat4 (b : Fin 4) (k : Fin 524288) : A4.Idx :=
  ix4 b ⟨k.val / 65536, by have := k.isLt; omega⟩ ⟨k.val / 4 % 16384, by omega⟩ ⟨k.val % 4, by omega⟩

/-- One entry's share of the squared difference, of the squared target, and of the gradient magnitude: the absolute
    difference between a neighbour's value and the point's own, over their distance (the extended reals' quotient). -/
def sqTerm (p t : A4.Idx → EReal) (i : A4.Idx) : EReal := (p i - t i) * (p i - t i)
def selfTerm (t : A4.Idx → EReal) (i : A4.Idx) : EReal := t i * t i
def gradTerm (f : A4.Idx → EReal) (nf : A5.Idx → EReal) (d : A3.Idx → EReal) (z : A5.Idx) : EReal :=
  Ideal.div (max (nf z - f (under z)) (-(nf z - f (under z)))) (d (distAt z))

theorem under_tile5 (b : Fin 4) (n : Fin 128) (z : B5.Idx) : under (tile5 b n z) = tile4 b n (underT z) := rfl
theorem distAt_tile5 (b : Fin 4) (n : Fin 128) (z : B5.Idx) : distAt (tile5 b n z) = tile3 b n (distAtT z) := rfl

end Sobolev

end
-- ==== Proof.KStep.lean ====
/-
  What one grid point adds to its 1×1×4 accumulator row, at the ideal values: entry k of the row grows by the k-th of
  four sums over the point's blocks — the squared differences of the two field blocks, the squared entries of the
  second, and for each field block the absolute differences between a neighbour's value and the point's own, over
  their distance.  The body computes each sum as a reduction of a block viewed without its unit batch axis, stores the
  four scalars side by side in a 4-vector, and adds that to the row viewed as a 4-vector; the lemmas below read each
  of these layout steps at an index.
-/
import proofs.«146281_j26474178412703_2_alg».proof.Proof.KPieces
import proofs.«146281_j26474178412703_2_alg».proof.Proof.Spec
import Idealize.ShloMosaic.PureOps.Ideal.Laws
import Idealize.ShloMosaic.Lib.Pipeline.Value
import Idealize.ShloMosaic.Lib.ValueIdx

noncomputable section

namespace Sobolev.Kernel

open Cert.KernelIdeal Cert.KernelIdeal.Gen Sobolev Idealize.ShloMosaic Idealize.ShloMosaic.ValueIdx

/-- The four partial sums of one tile: squared differences, squared targets, and the two gradient magnitudes. -/
def tileUpd (x0 x1 : Vec Ideal S1x8x128x4 .f32) (x2 x3 : Vec Ideal S1x8x128x16x4 .f32) (x4 : Vec Ideal S1x128x16 .f32) : Fin 4 → EReal
  | ⟨0, _⟩ => ∑ y : S1x8x128x4.Idx, (x0 y - x1 y) * (x0 y - x1 y)
  | ⟨1, _⟩ => ∑ y : S1x8x128x4.Idx, x1 y * x1 y
  | ⟨2, _⟩ => ∑ z : S1x8x128x16x4.Idx, Ideal.div (max (x2 z - x0 (underT z)) (-(x2 z - x0 (underT z)))) (x4 (distAtT z))
  | ⟨3, _⟩ => ∑ z : S1x8x128x16x4.Idx, Ideal.div (max (x3 z - x1 (underT z)) (-(x3 z - x1 (underT z)))) (x4 (distAtT z))

/-! ## Layout steps read at an index -/

section Layout

variable {α : Type}

/-- A 4-vector viewed as a 1×1×4 row: the row's entry is the vector's at the last coordinate. -/
theorem cast_row_apply (u : S4.Idx → α) (h : S4.ShapeCasts S1x1x4) (j : S1x1x4.Idx) :
    shapeCast S1x1x4 u h j = u (ix1 (j 2)) :=
  shapeCast_apply u h j (ix1 (j 2)) (by
    have h0 : (j 0).val < 1 := (j 0).isLt
    have h1 : (j 1).val < 1 := (j 1).isLt
    rw [Shape.rowMajor_val_one, Shape.rowMajor_val_three]
    show (j 2).val = ((j 0).val * 1 + (j 1).val) * 4 + (j 2).val
    omega)

/-- A 1×1×4 row viewed as a 4-vector. -/
theorem cast_vec_apply (acc : S1x1x4.Idx → α) (h : S1x1x4.ShapeCasts S4) (j : S1x1x4.Idx) :
    shapeCast S4 acc h (ix1 (j 2)) = acc j :=
  shapeCast_apply acc h _ j (by
    have h0 : (j 0).val < 1 := (j 0).isLt
    have h1 : (j 1).val < 1 := (j 1).isLt
    rw [Shape.rowMajor_val_three, Shape.rowMajor_val_one]
    show ((j 0).val * 1 + (j 1).val) * 4 + (j 2).val = (j 2).val
    omega)

/-- The one entry of a 1-vector, taken out through a 1×1×1×1 view. -/
theorem extract4_apply (v : S1.Idx → α) (h : S1.ShapeCasts S1x1x1x1)
    (hp : ∀ a, (![0, 0, 0, 0] : Fin 4 → Nat) a < S1x1x1x1.size a) :
    extractAt ![0, 0, 0, 0] (shapeCast S1x1x1x1 v h) hp = v (ix1 (⟨0, Nat.one_pos⟩ : Fin 1)) := by
  unfold extractAt
  refine shapeCast_apply v h _ _ ?_
  rw [Shape.rowMajor_val_one, Shape.rowMajor_val_four]
  rfl

/-- The same through a 1×1×1×1×1 view. -/
theorem extract5_apply (v : S1.Idx → α) (h : S1.ShapeCasts S1x1x1x1x1)
    (hp : ∀ a, (![0, 0, 0, 0, 0] : Fin 5 → Nat) a < S1x1x1x1x1.size a) :
    extractAt ![0, 0, 0, 0, 0] (shapeCast S1x1x1x1x1 v h) hp = v (ix1 (⟨0, Nat.one_pos⟩ : Fin 1)) := by
  unfold extractAt
  refine shapeCast_apply v h _ _ ?_
  rw [Shape.rowMajor_val_one, Shape.rowMajor_val_five]
  rfl

/-- Four scalars side by side in a 4-vector: entry k is the k-th. -/
theorem concat4_apply (v0 v1 v2 v3 : α) (h : Shape.Concatenates [S1, S1, S1, S1] S4 0) (k : Fin 4) :
    concatenate S4 0 [⟨S1, broadcast S1 v0⟩, ⟨S1, broadcast S1 v1⟩, ⟨S1, broadcast S1 v2⟩, ⟨S1, broadcast S1 v3⟩] h (ix1 k)
      = ![v0, v1, v2, v3] k := by
  have hi : ∀ b : Fin S1.rank, b.cast (rfl : S1.rank = S4.rank) ≠ (0 : Fin S4.rank) →
      ((ix1 (⟨0, Nat.one_pos⟩ : Fin 1) : S1.Idx) b).val = ((ix1 k : S4.Idx) (b.cast rfl)).val := fun b hb =>
    absurd (Fin.ext (by have hb1 : b.val < 1 := b.isLt; show b.val = 0; omega)) hb
  match k with
  | ⟨0, _⟩ =>
    exact concatenate_apply_piece (0 : Fin S4.rank) ([⟨S1, broadcast S1 v0⟩, ⟨S1, broadcast S1 v1⟩, ⟨S1, broadcast S1 v2⟩, ⟨S1, broadcast S1 v3⟩] : List ((s : Shape) × (s.Idx → α))) h _ 0 (by show 0 < 4; omega) S1 (broadcast S1 v0) rfl rfl 0 rfl
      (ix1 (⟨0, Nat.one_pos⟩ : Fin 1)) hi rfl
  | ⟨1, _⟩ =>
    exact concatenate_apply_piece (0 : Fin S4.rank) ([⟨S1, broadcast S1 v0⟩, ⟨S1, broadcast S1 v1⟩, ⟨S1, broadcast S1 v2⟩, ⟨S1, broadcast S1 v3⟩] : List ((s : Shape) × (s.Idx → α))) h _ 1 (by show 1 < 4; omega) S1 (broadcast S1 v1) rfl rfl 1 rfl
      (ix1 (⟨0, Nat.one_pos⟩ : Fin 1)) hi rfl
  | ⟨2, _⟩ =>
    exact concatenate_apply_piece (0 : Fin S4.rank) ([⟨S1, broadcast S1 v0⟩, ⟨S1, broadcast S1 v1⟩, ⟨S1, broadcast S1 v2⟩, ⟨S1, broadcast S1 v3⟩] : List ((s : Shape) × (s.Idx → α))) h _ 2 (by show 2 < 4; omega) S1 (broadcast S1 v2) rfl rfl 2 rfl
      (ix1 (⟨0, Nat.one_pos⟩ : Fin 1)) hi rfl
  | ⟨3, _⟩ =>
    exact concatenate_apply_piece (0 : Fin S4.rank) ([⟨S1, broadcast S1 v0⟩, ⟨S1, broadcast S1 v1⟩, ⟨S1, broadcast S1 v2⟩, ⟨S1, broadcast S1 v3⟩] : List ((s : Shape) × (s.Idx → α))) h _ 3 (by show 3 < 4; omega) S1 (broadcast S1 v3) rfl rfl 3 rfl
      (ix1 (⟨0, Nat.one_pos⟩ : Fin 1)) hi rfl

/-- An [8,128,4] value stored as a [1,8,128,4] block. -/
theorem add4_apply (u : S8x128x4.Idx → α) (h : S8x128x4.ShapeCasts S1x8x128x4) (y : S1x8x128x4.Idx) :
    shapeCast S1x8x128x4 u h y = u (ix3 (y 1) (y 2) (y 3)) :=
  shapeCast_apply u h y _ (by
    have h0 : (y 0).val < 1 := (y 0).isLt
    rw [Shape.rowMajor_val_three, Shape.rowMajor_val_four]
    show ((y 1).val * 128 + (y 2).val) * 4 + (y 3).val = (((y 0).val * 8 + (y 1).val) * 128 + (y 2).val) * 4 + (y 3).val
    omega)

/-- A [1,8,128,4] block viewed [8,128,4], read back at a block index's last three coordinates. -/
theorem drop4_apply (x : S1x8x128x4.Idx → α) (h : S1x8x128x4.ShapeCasts S8x128x4) (y : S1x8x128x4.Idx) :
    shapeCast S8x128x4 x h (ix3 (y 1) (y 2) (y 3)) = x y :=
  shapeCast_apply x h _ y (by
    have h0 : (y 0).val < 1 := (y 0).isLt
    rw [Shape.rowMajor_val_four, Shape.rowMajor_val_three]
    show (((y 0).val * 8 + (y 1).val) * 128 + (y 2).val) * 4 + (y 3).val = ((y 1).val * 128 + (y 2).val) * 4 + (y 3).val
    omega)

/-- An [8,128,16,4] value stored as a [1,8,128,16,4] block. -/
theorem add5_apply (u : S8x128x16x4.Idx → α) (h : S8x128x16x4.ShapeCasts S1x8x128x16x4) (z : S1x8x128x16x4.Idx) :
    shapeCast S1x8x128x16x4 u h z = u (ix4 (z 1) (z 2) (z 3) (z 4)) :=
  shapeCast_apply u h z _ (by
    have h0 : (z 0).val < 1 := (z 0).isLt
    rw [Shape.rowMajor_val_four, Shape.rowMajor_val_five]
    show (((z 1).val * 128 + (z 2).val) * 16 + (z 3).val) * 4 + (z 4).val
      = ((((z 0).val * 8 + (z 1).val) * 128 + (z 2).val) * 16 + (z 3).val) * 4 + (z 4).val
    omega)

/-- A [1,8,128,16,4] block viewed [8,128,16,4], read back at a block index's last four coordinates. -/
theorem drop5_apply (x : S1x8x128x16x4.Idx → α) (h : S1x8x128x16x4.ShapeCasts S8x128x16x4) (z : S1x8x128x16x4.Idx) :
    shapeCast S8x128x16x4 x h (ix4 (z 1) (z 2) (z 3) (z 4)) = x z :=
  shapeCast_apply x h _ z (by
    have h0 : (z 0).val < 1 := (z 0).isLt
    rw [Shape.rowMajor_val_five, Shape.rowMajor_val_four]
    show ((((z 0).val * 8 + (z 1).val) * 128 + (z 2).val) * 16 + (z 3).val) * 4 + (z 4).val
      = (((z 1).val * 128 + (z 2).val) * 16 + (z 3).val) * 4 + (z 4).val
    omega)

/-- A field value given a unit neighbour axis and repeated along it: every neighbour reads the point's own entry. -/
theorem bcast_mid_apply (u : S8x128x4.Idx → α) (h1 : S8x128x4.ShapeCasts S8x128x1x4)
    (h2 : S8x128x1x4.Broadcasts S8x128x16x4) (w : S8x128x16x4.Idx) :
    broadcastTo S8x128x16x4 (shapeCast S8x128x1x4 u h1) h2 w = u (ix3 (w 0) (w 1) (w 3)) := by
  refine (broadcastTo_apply _ h2 w (ix4 (w 0) (w 1) (⟨0, Nat.one_pos⟩ : Fin 1) (w 3)) fun a => ?_).trans ?_
  · match a with
    | ⟨0, _⟩ => rfl
    | ⟨1, _⟩ => rfl
    | ⟨2, _⟩ => rfl
    | ⟨3, _⟩ => rfl
  · exact shapeCast_apply u h1 _ _ (by
      rw [Shape.rowMajor_val_three, Shape.rowMajor_val_four]
      show ((w 0).val * 128 + (w 1).val) * 4 + (w 3).val = (((w 0).val * 128 + (w 1).val) * 1 + 0) * 4 + (w 3).val
      omega)

/-- The distances given unit time and channel axes and repeated along them: every time and channel read the
    (point, neighbour) entry. -/
theorem bcast_dist_apply (x4 : S1x128x16.Idx → α) (h1 : S1x128x16.ShapeCasts S128x16) (h2 : S128x16.ShapeCasts S1x128x16x1)
    (h3 : S1x128x16x1.Broadcasts S8x128x16x4) (w : S8x128x16x4.Idx) :
    broadcastTo S8x128x16x4 (shapeCast S1x128x16x1 (shapeCast S128x16 x4 h1) h2) h3 w
      = x4 (ix3 (⟨0, Nat.one_pos⟩ : Fin 1) (w 1) (w 2)) := by
  refine (broadcastTo_apply _ h3 w (ix4 (⟨0, Nat.one_pos⟩ : Fin 1) (w 1) (w 2) (⟨0, Nat.one_pos⟩ : Fin 1)) fun a => ?_).trans ?_
  · match a with
    | ⟨0, _⟩ => rfl
    | ⟨1, _⟩ => rfl
    | ⟨2, _⟩ => rfl
    | ⟨3, _⟩ => rfl
  · refine (shapeCast_apply _ h2 _ (ix2 (w 1) (w 2)) ?_).trans (shapeCast_apply x4 h1 _ _ ?_)
    · rw [Shape.rowMajor_val_two, Shape.rowMajor_val_four]
      show (w 1).val * 16 + (w 2).val = ((0 * 128 + (w 1).val) * 16 + (w 2).val) * 1 + 0
      omega
    · rw [Shape.rowMajor_val_three, Shape.rowMajor_val_two]
      show (0 * 128 + (w 1).val) * 16 + (w 2).val = (w 1).val * 16 + (w 2).val
      omega

end Layout

/-! ## The four sums, and the row after the point -/

/-- A gradient sum as the body computes it, from the absolute differences `v` and the distances `v20`: their
    quotient, summed over the block. -/
def gradSum {F : FTy → Type} [FloatOps F] (v20 : FVec F S1x128x16x1 .f32) (v : FVec F S8x128x16x4 .f32) : F .f32 :=
  extractAt ![0, 0, 0, 0, 0]
    (shapeCast S1x1x1x1x1
      (multiReduction .add [1, 2, 3, 4] S1
        (shapeCast S1x8x128x16x4 (divf v (broadcastTo S8x128x16x4 v20 broadcasts_S1x128x16x1_S8x128x16x4))
          shapeCasts_S8x128x16x4_S1x8x128x16x4)
        0x00000000#32 reduces_S1x8x128x16x4_S1 (.inl rfl) rfl)
      shapeCasts_S1_S1x1x1x1x1)
    inpos_S1x1x1x1x1_p0_0_0_0_0

/-- The stored row: the row before, viewed as a 4-vector, plus the four sums side by side, viewed as a row again. -/
theorem pay1_eq {F : FTy → Type} [FloatOps F] (v12 v17 : F .f32) (v20 : FVec F S1x128x16x1 .f32)
    (v30 v31 : FVec F S8x128x16x4 .f32) (v50 : Vec F S1x1x4 .f32) :
    k0_pay1 v12 v17 v20 v30 v31 v50
      = shapeCast S1x1x4 (addf (shapeCast S4 v50 shapeCasts_S1x1x4_S4)
          (concatenate S4 0 [⟨S1, broadcast S1 v12⟩, ⟨S1, broadcast S1 v17⟩, ⟨S1, broadcast S1 (gradSum v20 v31)⟩,
            ⟨S1, broadcast S1 (gradSum v20 (absf v30))⟩] concatenates_S1_S1_S1_S1_S4_d0)) shapeCasts_S4_S1x1x4 := rfl

/-- The first sum: the squared differences of the two field blocks. -/
theorem pay5_eq (x0 x1 : Vec Ideal S1x8x128x4 .f32) :
    k0_pay5 (F := Ideal) x0 x1 = ∑ y : S1x8x128x4.Idx, (x0 y - x1 y) * (x0 y - x1 y) := by
  unfold k0_pay5 k0_pay3 k0_pay4
  dsimp only
  refine (extract4_apply _ _ _).trans ?_
  refine (Ideal.multiReduction_add_total _ _ _ (fun b => match b with | ⟨0, _⟩ => rfl) _ _ _).trans ?_
  refine Finset.sum_congr rfl fun y _ => ?_
  refine (add4_apply _ _ y).trans ?_
  exact congrArg₂ (fun a b : EReal => (a - b) * (a - b)) (drop4_apply x0 _ y) (drop4_apply x1 _ y)

/-- The second sum: the squared entries of the second field block. -/
theorem pay6_eq (x1 : Vec Ideal S1x8x128x4 .f32) :
    k0_pay6 (F := Ideal) x1 = ∑ y : S1x8x128x4.Idx, x1 y * x1 y := by
  unfold k0_pay6 k0_pay4
  dsimp only
  refine (extract4_apply _ _ _).trans ?_
  refine (Ideal.multiReduction_add_total _ _ _ (fun b => match b with | ⟨0, _⟩ => rfl) _ _ _).trans ?_
  refine Finset.sum_congr rfl fun y _ => ?_
  refine (add4_apply _ _ y).trans ?_
  exact congrArg₂ (fun a b : EReal => a * b) (drop4_apply x1 _ y) (drop4_apply x1 _ y)

/-- A gradient sum at the ideal values: the sum over the block of the quotients. -/
theorem gradSum_eq (v20 : FVec Ideal S1x128x16x1 .f32) (v : FVec Ideal S8x128x16x4 .f32) :
    gradSum v20 v = ∑ z : S1x8x128x16x4.Idx, Ideal.div (v (ix4 (z 1) (z 2) (z 3) (z 4)))
      (broadcastTo S8x128x16x4 v20 broadcasts_S1x128x16x1_S8x128x16x4 (ix4 (z 1) (z 2) (z 3) (z 4))) := by
  unfold gradSum
  refine (extract5_apply _ _ _).trans ?_
  refine (Ideal.multiReduction_add_total _ _ _ (fun b => match b with | ⟨0, _⟩ => rfl) _ _ _).trans ?_
  exact Finset.sum_congr rfl fun z _ => add5_apply _ _ z

/-- The distance under a neighbour entry of the block. -/
theorem dist_apply (x4 : Vec Ideal S1x128x16 .f32) (z : S1x8x128x16x4.Idx) :
    broadcastTo S8x128x16x4 (k0_pay7 (F := Ideal) x4) broadcasts_S1x128x16x1_S8x128x16x4 (ix4 (z 1) (z 2) (z 3) (z 4))
      = x4 (distAtT z) := by
  have h0 : (z 0).val < 1 := (z 0).isLt
  refine (bcast_dist_apply x4 _ _ _ _).trans (congrArg x4 (funext fun a => Fin.ext ?_))
  match a with
  | ⟨0, _⟩ => show 0 = (z 0).val; omega
  | ⟨1, _⟩ => rfl
  | ⟨2, _⟩ => rfl

/-- The difference between a neighbour's value and the point's own, in the second field. -/
theorem pay8_apply (x1 : Vec Ideal S1x8x128x4 .f32) (x3 : Vec Ideal S1x8x128x16x4 .f32) (z : S1x8x128x16x4.Idx) :
    k0_pay8 (F := Ideal) x1 x3 (ix4 (z 1) (z 2) (z 3) (z 4)) = x3 z - x1 (underT z) := by
  unfold k0_pay8 k0_pay4
  dsimp only
  exact congrArg₂ (fun a b : EReal => a - b) (drop5_apply x3 _ z)
    ((bcast_mid_apply _ _ _ _).trans (drop4_apply x1 _ (underT z)))

/-- The absolute difference between a neighbour's value and the point's own, in the first field. -/
theorem pay9_apply (x0 : Vec Ideal S1x8x128x4 .f32) (x2 : Vec Ideal S1x8x128x16x4 .f32) (z : S1x8x128x16x4.Idx) :
    k0_pay9 (F := Ideal) x0 x2 (ix4 (z 1) (z 2) (z 3) (z 4))
      = max (x2 z - x0 (underT z)) (-(x2 z - x0 (underT z))) := by
  unfold k0_pay9 k0_pay3
  dsimp only
  exact congrArg₂ (fun a b : EReal => max (a - b) (-(a - b))) (drop5_apply x2 _ z)
    ((bcast_mid_apply _ _ _ _).trans (drop4_apply x0 _ (underT z)))

/-- Entry k of the four sums side by side is the k-th partial sum of the tile. -/
theorem upd_apply (x0 x1 : Vec Ideal S1x8x128x4 .f32) (x2 x3 : Vec Ideal S1x8x128x16x4 .f32)
    (x4 : Vec Ideal S1x128x16 .f32) (k : Fin 4) :
    concatenate S4 0 [⟨S1, broadcast S1 (k0_pay5 (F := Ideal) x0 x1)⟩, ⟨S1, broadcast S1 (k0_pay6 (F := Ideal) x1)⟩,
        ⟨S1, broadcast S1 (gradSum (k0_pay7 (F := Ideal) x4) (k0_pay9 x0 x2))⟩,
        ⟨S1, broadcast S1 (gradSum (k0_pay7 (F := Ideal) x4) (absf (k0_pay8 x1 x3)))⟩]
        concatenates_S1_S1_S1_S1_S4_d0 (ix1 k)
      = tileUpd x0 x1 x2 x3 x4 k := by
  refine (concat4_apply _ _ _ _ _ k).trans ?_
  match k with
  | ⟨0, _⟩ => exact pay5_eq x0 x1
  | ⟨1, _⟩ => exact pay6_eq x1
  | ⟨2, _⟩ =>
    exact (gradSum_eq _ _).trans (Finset.sum_congr rfl fun z _ =>
      congrArg₂ Ideal.div (pay9_apply x0 x2 z) (dist_apply x4 z))
  | ⟨3, _⟩ =>
    exact (gradSum_eq _ _).trans (Finset.sum_congr rfl fun z _ =>
      congrArg₂ Ideal.div (congrArg (fun a : EReal => max a (-a)) (pay8_apply x1 x3 z)) (dist_apply x4 z))

/-- The row after a point: each entry grows by its partial sum of the point's blocks. -/
theorem step_apply (x0 x1 : Vec Ideal S1x8x128x4 .f32) (x2 x3 : Vec Ideal S1x8x128x16x4 .f32) (x4 : Vec Ideal S1x128x16 .f32) (acc : Vec Ideal S1x1x4 .f32) (j : S1x1x4.Idx) :
    step (F := Ideal) x0 x1 x2 x3 x4 acc j = acc j + tileUpd x0 x1 x2 x3 x4 (j 2) := by
  unfold step
  rw [pay1_eq]
  refine (cast_row_apply _ _ j).trans ?_
  exact congrArg₂ (fun a b : EReal => a + b) (cast_vec_apply acc _ j) (upd_apply x0 x1 x2 x3 x4 (j 2))

/-- The cleared row is zero: the f32 zero word is the extended real 0, repeated, and the cast to the same shape changes
    nothing. -/
theorem cleared_apply (j : S1x1x4.Idx) : (k0_pay2 (F := Ideal)) j = 0 := by
  unfold k0_pay2
  rw [shapeCast_self]
  exact Ideal.ofBits_zero_f32

end Sobolev.Kernel

end
-- ==== Proof.KAccum.lean ====
/-
  The accumulator row, point by point.  The row after point n is `step` of point n's blocks and of the row after point
  n - 1 — or of the cleared row when n is the first point of its batch (n % 128 = 0).  At a batch's last point
  (n % 128 = 127) the output block is written with the same row.  By induction on the point, never by enumeration.
-/
import proofs.«146281_j26474178412703_2_alg».proof.Proof.KPieces

noncomputable section

open Idealize.ShloMosaic Idealize.ShloMosaic.TcCoe Idealize.SL.Sem

namespace Sobolev.Kernel

open Cert.KernelIdeal Cert.KernelIdeal.Gen

variable {F : FTy → Type} [FloatOps F]
variable (m : (ℓ : Loc nD τ sig) → Buf (Elt F) ℓ)

/-- The accumulator row after point `n`. -/
def rowAfter (c : Dev nD) : (n : ℕ) → n < cfg0.N → Vec F S1x1x4 .f32
  | 0, h => step (iblk m c 0 ⟨0, h⟩) (iblk m c 1 ⟨0, h⟩) (iblk m c 2 ⟨0, h⟩) (iblk m c 3 ⟨0, h⟩) (iblk m c 4 ⟨0, h⟩) (k0_pay2 (F := F))
  | n + 1, h => step (iblk m c 0 ⟨n + 1, h⟩) (iblk m c 1 ⟨n + 1, h⟩) (iblk m c 2 ⟨n + 1, h⟩) (iblk m c 3 ⟨n + 1, h⟩) (iblk m c 4 ⟨n + 1, h⟩)
      (if (n + 1) % 128 = 0 then k0_pay2 (F := F) else rowAfter c n (Nat.lt_of_succ_lt h))

/-- The carried scratch after point `n` is that row. -/
theorem scratch_eq (c : Dev nD) : ∀ (n : ℕ) (h : n < cfg0.N), (outsAt0 m c n h).2 = rowAfter m c n h
  | 0, h => by
    rw [outsAt0_A m c ⟨0, h⟩ rfl (by show ¬ (0 % 128 = 127); omega)]
    dsimp only
    rw [sout_A, rowAfter]
  | n + 1, h => by
    have hN : cfg0.N = 512 := N_0
    by_cases h0 : (n + 1) % 128 = 0
    · have h1 : ¬ (n + 1) % 128 = 127 := by omega
      rw [outsAt0_A m c ⟨n + 1, h⟩ h0 h1]
      dsimp only
      rw [sout_A, rowAfter, if_pos h0]
    · by_cases h1 : (n + 1) % 128 = 127
      · rw [outsAt0_C m c ⟨n + 1, h⟩ h0 h1]
        dsimp only
        rw [sout_C, rowAfter, if_neg h0]
        exact congrArg (step (iblk m c 0 ⟨n + 1, h⟩) (iblk m c 1 ⟨n + 1, h⟩) (iblk m c 2 ⟨n + 1, h⟩) (iblk m c 3 ⟨n + 1, h⟩) (iblk m c 4 ⟨n + 1, h⟩)) (scratch_eq c n _)
      · rw [outsAt0_B m c ⟨n + 1, h⟩ h0 h1]
        dsimp only
        rw [sout_B, rowAfter, if_neg h0]
        exact congrArg (step (iblk m c 0 ⟨n + 1, h⟩) (iblk m c 1 ⟨n + 1, h⟩) (iblk m c 2 ⟨n + 1, h⟩) (iblk m c 3 ⟨n + 1, h⟩) (iblk m c 4 ⟨n + 1, h⟩)) (scratch_eq c n _)

/-- At a batch's last point the output block holds the same row. -/
theorem out_eq (c : Dev nD) (t : Fin cfg0.N) (h1 : t.val % 128 = 127) :
    (outsAt0 m c t.val t.isLt).1 = rowAfter m c t.val t.isLt := by
  have h0 : ¬ t.val % 128 = 0 := by omega
  rw [← scratch_eq, outsAt0_C m c t h0 h1]
  dsimp only
  rw [out_C, sout_C]

end Sobolev.Kernel

end
-- ==== Proof.KBlocks.lean ====
/-
  Where a grid point reads.  Point t of the 4 × 128 grid is tile n = t % 128 of batch b = t / 128: its field blocks are
  the 8 × 128 × 4 entries of points n*128 … n*128+127 of batch b, its neighbour blocks the 8 × 128 × 16 × 4 entries over
  the same points, its distance block the 128 × 16 entries there; its output block is row b of the 4 × 1 × 4 result.
-/
import proofs.«146281_j26474178412703_2_alg».proof.Proof.Gen.KernelIdeal.Frame
import proofs.«146281_j26474178412703_2_alg».proof.Proof.Spec
import Idealize.ShloMosaic.Lib.Pipeline.Value

noncomputable section

open Idealize.ShloMosaic Idealize.ShloMosaic.TcCoe Idealize.SL.Sem Idealize.ShloMosaic.ValueIdx

namespace Sobolev.Kernel

open Cert.KernelIdeal Cert.KernelIdeal.Gen Sobolev

variable {F : FTy → Type} [FloatOps F]
variable (m : (ℓ : Loc nD τ sig) → Buf (Elt F) ℓ)

/-- The batch and the tile of a grid point. -/
def bOf (t : Fin cfg0.N) : Fin 4 := ⟨t.val / 128, by have := t.isLt; have : cfg0.N = 512 := N_0; omega⟩
def nOf (t : Fin cfg0.N) : Fin 128 := ⟨t.val % 128, by omega⟩

theorem index0 : ∀ t : Fin cfg0.N, win0_0.index t (0 : Fin 4) = t.val / 128 ∧ win0_0.index t (1 : Fin 4) = 0
    ∧ win0_0.index t (2 : Fin 4) = t.val % 128 ∧ win0_0.index t (3 : Fin 4) = 0 :=
  (by decide +kernel : ∀ t : Fin grid0.N, win0_0.index t (0 : Fin 4) = t.val / 128 ∧ win0_0.index t (1 : Fin 4) = 0
    ∧ win0_0.index t (2 : Fin 4) = t.val % 128 ∧ win0_0.index t (3 : Fin 4) = 0)

/-- Window 0's block at point t holds the entries of tile (b, n) of its field array. -/
theorem iblk0_apply (c : Dev nD) (t : Fin cfg0.N) (y : S1x8x128x4.Idx) :
    (iblk m c 0 t : Vec F S1x8x128x4 .f32) y = V m c main_arg0 (tile4 (bOf t) (nOf t) y) := by
  unfold iblk
  rw [View.read_apply]
  show V m c main_arg0 _ = V m c main_arg0 _
  congr 1
  funext a
  apply Fin.ext
  have h0 : (y 0).val < 1 := (y 0).isLt
  match a with
  | ⟨0, _⟩ => show win0_0.index t 0 * 1 + 1 * (y 0).val = t.val / 128; rw [(index0 t).1]; omega
  | ⟨1, _⟩ => show win0_0.index t 1 * 8 + 1 * (y 1).val = (y 1).val; rw [(index0 t).2.1]; omega
  | ⟨2, _⟩ => show win0_0.index t 2 * 128 + 1 * (y 2).val = t.val % 128 * 128 + (y 2).val; rw [(index0 t).2.2.1]; omega
  | ⟨3, _⟩ => show win0_0.index t 3 * 4 + 1 * (y 3).val = (y 3).val; rw [(index0 t).2.2.2]; omega

theorem index1 : ∀ t : Fin cfg0.N, win0_1.index t (0 : Fin 4) = t.val / 128 ∧ win0_1.index t (1 : Fin 4) = 0
    ∧ win0_1.index t (2 : Fin 4) = t.val % 128 ∧ win0_1.index t (3 : Fin 4) = 0 :=
  (by decide +kernel : ∀ t : Fin grid0.N, win0_1.index t (0 : Fin 4) = t.val / 128 ∧ win0_1.index t (1 : Fin 4) = 0
    ∧ win0_1.index t (2 : Fin 4) = t.val % 128 ∧ win0_1.index t (3 : Fin 4) = 0)

/-- Window 1's block at point t holds the entries of tile (b, n) of its field array. -/
theorem iblk1_apply (c : Dev nD) (t : Fin cfg0.N) (y : S1x8x128x4.Idx) :
    (iblk m c 1 t : Vec F S1x8x128x4 .f32) y = V m c main_arg1 (tile4 (bOf t) (nOf t) y) := by
  unfold iblk
  rw [View.read_apply]
  show V m c main_arg1 _ = V m c main_arg1 _
  congr 1
  funext a
  apply Fin.ext
  have h0 : (y 0).val < 1 := (y 0).isLt
  match a with
  | ⟨0, _⟩ => show win0_1.index t 0 * 1 + 1 * (y 0).val = t.val / 128; rw [(index1 t).1]; omega
  | ⟨1, _⟩ => show win0_1.index t 1 * 8 + 1 * (y 1).val = (y 1).val; rw [(index1 t).2.1]; omega
  | ⟨2, _⟩ => show win0_1.index t 2 * 128 + 1 * (y 2).val = t.val % 128 * 128 + (y 2).val; rw [(index1 t).2.2.1]; omega
  | ⟨3, _⟩ => show win0_1.index t 3 * 4 + 1 * (y 3).val = (y 3).val; rw [(index1 t).2.2.2]; omega

theorem index2 : ∀ t : Fin cfg0.N, win0_2.index t (0 : Fin 5) = t.val / 128 ∧ win0_2.index t (1 : Fin 5) = 0
    ∧ win0_2.index t (2 : Fin 5) = t.val % 128 ∧ win0_2.index t (3 : Fin 5) = 0 ∧ win0_2.index t (4 : Fin 5) = 0 :=
  (by decide +kernel : ∀ t : Fin grid0.N, win0_2.index t (0 : Fin 5) = t.val / 128 ∧ win0_2.index t (1 : Fin 5) = 0
    ∧ win0_2.index t (2 : Fin 5) = t.val % 128 ∧ win0_2.index t (3 : Fin 5) = 0 ∧ win0_2.index t (4 : Fin 5) = 0)

/-- Window 2's block at point t holds the entries of tile (b, n) of its neighbour array. -/
theorem iblk2_apply (c : Dev nD) (t : Fin cfg0.N) (z : S1x8x128x16x4.Idx) :
    (iblk m c 2 t : Vec F S1x8x128x16x4 .f32) z = V m c main_v23 (tile5 (bOf t) (nOf t) z) := by
  unfold iblk
  rw [View.read_apply]
  show V m c main_v23 _ = V m c main_v23 _
  congr 1
  funext a
  apply Fin.ext
  have h0 : (z 0).val < 1 := (z 0).isLt
  match a with
  | ⟨0, _⟩ => show win0_2.index t 0 * 1 + 1 * (z 0).val = t.val / 128; rw [(index2 t).1]; omega
  | ⟨1, _⟩ => show win0_2.index t 1 * 8 + 1 * (z 1).val = (z 1).val; rw [(index2 t).2.1]; omega
  | ⟨2, _⟩ => show win0_2.index t 2 * 128 + 1 * (z 2).val = t.val % 128 * 128 + (z 2).val; rw [(index2 t).2.2.1]; omega
  | ⟨3, _⟩ => show win0_2.index t 3 * 16 + 1 * (z 3).val = (z 3).val; rw [(index2 t).2.2.2.1]; omega
  | ⟨4, _⟩ => show win0_2.index t 4 * 4 + 1 * (z 4).val = (z 4).val; rw [(index2 t).2.2.2.2]; omega

theorem index3 : ∀ t : Fin cfg0.N, win0_3.index t (0 : Fin 5) = t.val / 128 ∧ win0_3.index t (1 : Fin 5) = 0
    ∧ win0_3.index t (2 : Fin 5) = t.val % 128 ∧ win0_3.index t (3 : Fin 5) = 0 ∧ win0_3.index t (4 : Fin 5) = 0 :=
  (by decide +kernel : ∀ t : Fin grid0.N, win0_3.index t (0 : Fin 5) = t.val / 128 ∧ win0_3.index t (1 : Fin 5) = 0
    ∧ win0_3.index t (2 : Fin 5) = t.val % 128 ∧ win0_3.index t (3 : Fin 5) = 0 ∧ win0_3.index t (4 : Fin 5) = 0)

/-- Window 3's block at point t holds the entries of tile (b, n) of its neighbour array. -/
theorem iblk3_apply (c : Dev nD) (t : Fin cfg0.N) (z : S1x8x128x16x4.Idx) :
    (iblk m c 3 t : Vec F S1x8x128x16x4 .f32) z = V m c main_v30 (tile5 (bOf t) (nOf t) z) := by
  unfold iblk
  rw [View.read_apply]
  show V m c main_v30 _ = V m c main_v30 _
  congr 1
  funext a
  apply Fin.ext
  have h0 : (z 0).val < 1 := (z 0).isLt
  match a with
  | ⟨0, _⟩ => show win0_3.index t 0 * 1 + 1 * (z 0).val = t.val / 128; rw [(index3 t).1]; omega
  | ⟨1, _⟩ => show win0_3.index t 1 * 8 + 1 * (z 1).val = (z 1).val; rw [(index3 t).2.1]; omega
  | ⟨2, _⟩ => show win0_3.index t 2 * 128 + 1 * (z 2).val = t.val % 128 * 128 + (z 2).val; rw [(index3 t).2.2.1]; omega
  | ⟨3, _⟩ => show win0_3.index t 3 * 16 + 1 * (z 3).val = (z 3).val; rw [(index3 t).2.2.2.1]; omega
  | ⟨4, _⟩ => show win0_3.index t 4 * 4 + 1 * (z 4).val = (z 4).val; rw [(index3 t).2.2.2.2]; omega

theorem index4 : ∀ t : Fin cfg0.N, win0_4.index t (0 : Fin 3) = t.val / 128 ∧ win0_4.index t (1 : Fin 3) = t.val % 128
    ∧ win0_4.index t (2 : Fin 3) = 0 :=
  (by decide +kernel : ∀ t : Fin grid0.N, win0_4.index t (0 : Fin 3) = t.val / 128 ∧ win0_4.index t (1 : Fin 3) = t.val % 128
    ∧ win0_4.index t (2 : Fin 3) = 0)

/-- Window 4's block at point t holds the distances of tile (b, n). -/
theorem iblk4_apply (c : Dev nD) (t : Fin cfg0.N) (w : S1x128x16.Idx) :
    (iblk m c 4 t : Vec F S1x128x16 .f32) w = V m c main_v16 (tile3 (bOf t) (nOf t) w) := by
  unfold iblk
  rw [View.read_apply]
  show V m c main_v16 _ = V m c main_v16 _
  congr 1
  funext a
  apply Fin.ext
  have h0 : (w 0).val < 1 := (w 0).isLt
  match a with
  | ⟨0, _⟩ => show win0_4.index t 0 * 1 + 1 * (w 0).val = t.val / 128; rw [(index4 t).1]; omega
  | ⟨1, _⟩ => show win0_4.index t 1 * 128 + 1 * (w 1).val = t.val % 128 * 128 + (w 1).val; rw [(index4 t).2.1]; omega
  | ⟨2, _⟩ => show win0_4.index t 2 * 16 + 1 * (w 2).val = (w 2).val; rw [(index4 t).2.2]; omega

/-- The output window's block at point t is row b of the result. -/
theorem index5 : ∀ t : Fin cfg0.N, win0_5.index t (0 : Fin 3) = t.val / 128 ∧ win0_5.index t (1 : Fin 3) = 0
    ∧ win0_5.index t (2 : Fin 3) = 0 :=
  (by decide +kernel : ∀ t : Fin grid0.N, win0_5.index t (0 : Fin 3) = t.val / 128 ∧ win0_5.index t (1 : Fin 3) = 0
    ∧ win0_5.index t (2 : Fin 3) = 0)

end Sobolev.Kernel

end
-- ==== Proof.KFinal.lean ====
/-
  The result array of the kernel.  The output window's block moves only with the batch and is written back after a
  batch's last point, so row b of the 4 × 1 × 4 result holds the accumulator row after point b*128 + 127; the four rows
  cover the array.
-/
import proofs.«146281_j26474178412703_2_alg».proof.Proof.KAccum
import proofs.«146281_j26474178412703_2_alg».proof.Proof.KBlocks

noncomputable section

open Idealize.ShloMosaic Idealize.ShloMosaic.TcCoe Idealize.SL.Sem Idealize.ShloMosaic.ValueIdx
open Idealize.ShloMosaic.Pipeline (Dat)

namespace Sobolev.Kernel

open Cert.KernelIdeal Cert.KernelIdeal.Gen

variable {F : FTy → Type} [FloatOps F]
variable (m : (ℓ : Loc nD τ sig) → Buf (Elt F) ℓ)

/-- The last point of batch `b`. -/
def lastOf (b : Fin 4) : Fin cfg0.N := ⟨b.val * 128 + 127, by have : cfg0.N = 512 := N_0; have := b.isLt; omega⟩

theorem rowAfter_congr (c : Dev nD) {n n' : ℕ} (h : n < cfg0.N) (h' : n' < cfg0.N) (e : n = n') :
    rowAfter m c n h = rowAfter m c n' h' := by subst e; rfl

/-- The result array: row `b` is the accumulator row after batch `b`'s last point. -/
def result (c : Dev nD) : S4x1x4.Idx → Elt F .f32 := fun i =>
  rowAfter m c (lastOf (i 0)).val (lastOf (i 0)).isLt (ix3 ⟨0, by decide⟩ (i 1) (i 2))

/-- What a batch's last point writes back is that row of the result. -/
theorem flushed_eq (c : Dev nD) (t : Fin cfg0.N) (hf : (cfg0.win 5).flush t = true) :
    (dats m 0 c).flushed 5 t = ((cfg0.win 5).blk t).view.read (Elt F) (result m c) := by
  have h127 : t.val % 128 = 127 := (flush0_5 t).mp hf
  show (cfg0.win 5).cut (grid0.coords t) ((dats m 0 c).after 5 t) = _
  rw [after0_5, out_eq m c t h127]
  funext y
  show rowAfter m c t.val t.isLt y = result m c (((cfg0.win 5).blk t).view.emb y)
  obtain ⟨e0, e1, e2⟩ := index5 t
  have hy0 : (y 0).val < 1 := (y 0).isLt
  have hy1 : (y 1).val < 1 := (y 1).isLt
  have hb : (lastOf ((((cfg0.win 5).blk t).view.emb y) 0)).val = t.val := by
    show (win0_5.index t 0 * 1 + 1 * (y 0).val) * 128 + 127 = t.val
    rw [e0]; omega
  unfold result
  rw [rowAfter_congr m c _ t.isLt hb]
  refine congrArg (rowAfter m c t.val t.isLt) (funext fun a => Fin.ext ?_)
  match a with
  | ⟨0, _⟩ => show (y 0).val = 0; omega
  | ⟨1, _⟩ => show (y 1).val = win0_5.index t 1 * 1 + 1 * (y 1).val; rw [e1]; omega
  | ⟨2, _⟩ => show (y 2).val = win0_5.index t 2 * 4 + 1 * (y 2).val; rw [e2]; omega

/-- Every entry of the result lies in the block of its batch's last point. -/
theorem covered (i : S4x1x4.Idx) :
    ∃ t : Fin cfg0.N, (cfg0.win 5).flush t = true ∧ i ∈ ((cfg0.win 5).blk t).view.set := by
  have hi0 : (i 0).val < 4 := (i 0).isLt
  have hi1 : (i 1).val < 1 := (i 1).isLt
  have hi2 : (i 2).val < 4 := (i 2).isLt
  refine ⟨lastOf (i 0), (flush0_5 _).mpr (by show ((i 0).val * 128 + 127) % 128 = 127; omega), ?_⟩
  obtain ⟨e0, e1, e2⟩ := index5 (lastOf (i 0))
  have ev : (lastOf (i 0)).val = (i 0).val * 128 + 127 := rfl
  show i ∈ ((View.whole main_v31).slice (win0_5.rect (lastOf (i 0)))).set
  rw [View.set_slice_whole, Rect.mem_set_unit]
  intro a
  match a with
  | ⟨0, _⟩ => show win0_5.index (lastOf (i 0)) 0 * 1 ≤ (i 0).val ∧ (i 0).val < win0_5.index (lastOf (i 0)) 0 * 1 + 1; rw [e0, ev]; omega
  | ⟨1, _⟩ => show win0_5.index (lastOf (i 0)) 1 * 1 ≤ (i 1).val ∧ (i 1).val < win0_5.index (lastOf (i 0)) 1 * 1 + 1; rw [e1]; omega
  | ⟨2, _⟩ => show win0_5.index (lastOf (i 0)) 2 * 4 ≤ (i 2).val ∧ (i 2).val < win0_5.index (lastOf (i 0)) 2 * 4 + 4; rw [e2]; omega

/-- So the result array ends holding `result`. -/
theorem final (c : Dev nD) : (dats m 0 c).arrAt 5 cfg0.N = result m c :=
  (dats m 0 c).arrAt_eq_of_cover 5 (result m c) (flushed_eq m c) covered

end Sobolev.Kernel

end
-- ==== Proof.BatchSums.lean ====
/-
  Sums over one batch of a [4, 8, 16384, ·] array, three ways: tile by tile (128 tiles of 128 points), along the
  flattened (time, point, channel) axis, and over the set of all entries of the batch.  All three are the same sum in any
  commutative monoid: each re-indexing is a bijection onto the batch's entries.
-/
import proofs.«146281_j26474178412703_2_alg».proof.Proof.Spec
import Idealize.ShloMosaic.PureOps.Reduce

noncomputable section

namespace Sobolev

open Idealize.ShloMosaic Idealize.ShloMosaic.ValueIdx

variable {M : Type*} [AddCommMonoid M]

/-- Summing a batch's field entries tile by tile is summing them all. -/
theorem sum_tile4 (g : A4.Idx → M) (b : Fin 4) :
    ∑ n : Fin 128, ∑ y : B4.Idx, g (tile4 b n y) = ∑ i ∈ batch4 b, g i := by
  -- One sum over the pairs (tile, entry of the tile); the pair ↦ entry map is inverted by
  -- i ↦ (point / 128, (0, time, point % 128, channel)), since point = (point / 128) * 128 + point % 128.
  refine (Fintype.sum_prod_type' (fun (n : Fin 128) (y : B4.Idx) => g (tile4 b n y))).symm.trans ?_
  refine Finset.sum_nbij' (fun p : Fin 128 × B4.Idx => tile4 b p.1 p.2)
    (fun i : A4.Idx => ((⟨(i 2).val / 128, by have h2 : (i 2).val < 16384 := (i 2).isLt; omega⟩ : Fin 128),
      (ix4 (⟨0, by omega⟩ : Fin 1) (i 1) (⟨(i 2).val % 128, by omega⟩ : Fin 128) (i 3) : B4.Idx)))
    ?_ ?_ ?_ ?_ ?_
  · intro p _
    exact Finset.mem_filter.mpr ⟨Finset.mem_univ _, rfl⟩
  · intro i _
    exact Finset.mem_univ _
  · rintro ⟨n, y⟩ _
    have hn : n.val < 128 := n.isLt
    have h0 : (y 0).val < 1 := (y 0).isLt
    have h2 : (y 2).val < 128 := (y 2).isLt
    refine Prod.ext (Fin.ext ?_) (funext fun a => Fin.ext ?_)
    · show (n.val * 128 + (y 2).val) / 128 = n.val
      omega
    · match a with
      | ⟨0, _⟩ => show 0 = (y 0).val; omega
      | ⟨1, _⟩ => rfl
      | ⟨2, _⟩ => show (n.val * 128 + (y 2).val) % 128 = (y 2).val; omega
      | ⟨3, _⟩ => rfl
  · intro i hi
    have hb : (i 0).val = b.val := (Finset.mem_filter.mp hi).2
    have h2 : (i 2).val < 16384 := (i 2).isLt
    refine funext fun a => Fin.ext ?_
    match a with
    | ⟨0, _⟩ => show b.val = (i 0).val; omega
    | ⟨1, _⟩ => rfl
    | ⟨2, _⟩ => show (i 2).val / 128 * 128 + (i 2).val % 128 = (i 2).val; omega
    | ⟨3, _⟩ => rfl
  · intro p _
    rfl

/-- Summing a batch's neighbour entries tile by tile is summing them all. -/
theorem sum_tile5 (g : A5.Idx → M) (b : Fin 4) :
    ∑ n : Fin 128, ∑ z : B5.Idx, g (tile5 b n z) = ∑ i ∈ batch5 b, g i := by
  -- As for the field entries, with the neighbour coordinate carried along unchanged.
  refine (Fintype.sum_prod_type' (fun (n : Fin 128) (z : B5.Idx) => g (tile5 b n z))).symm.trans ?_
  refine Finset.sum_nbij' (fun p : Fin 128 × B5.Idx => tile5 b p.1 p.2)
    (fun i : A5.Idx => ((⟨(i 2).val / 128, by have h2 : (i 2).val < 16384 := (i 2).isLt; omega⟩ : Fin 128),
      (ix5 (⟨0, by omega⟩ : Fin 1) (i 1) (⟨(i 2).val % 128, by omega⟩ : Fin 128) (i 3) (i 4) : B5.Idx)))
    ?_ ?_ ?_ ?_ ?_
  · intro p _
    exact Finset.mem_filter.mpr ⟨Finset.mem_univ _, rfl⟩
  · intro i _
    exact Finset.mem_univ _
  · rintro ⟨n, z⟩ _
    have hn : n.val < 128 := n.isLt
    have h0 : (z 0).val < 1 := (z 0).isLt
    have h2 : (z 2).val < 128 := (z 2).isLt
    refine Prod.ext (Fin.ext ?_) (funext fun a => Fin.ext ?_)
    · show (n.val * 128 + (z 2).val) / 128 = n.val
      omega
    · match a with
      | ⟨0, _⟩ => show 0 = (z 0).val; omega
      | ⟨1, _⟩ => rfl
      | ⟨2, _⟩ => show (n.val * 128 + (z 2).val) % 128 = (z 2).val; omega
      | ⟨3, _⟩ => rfl
      | ⟨4, _⟩ => rfl
  · intro i hi
    have hb : (i 0).val = b.val := (Finset.mem_filter.mp hi).2
    have h2 : (i 2).val < 16384 := (i 2).isLt
    refine funext fun a => Fin.ext ?_
    match a with
    | ⟨0, _⟩ => show b.val = (i 0).val; omega
    | ⟨1, _⟩ => rfl
    | ⟨2, _⟩ => show (i 2).val / 128 * 128 + (i 2).val % 128 = (i 2).val; omega
    | ⟨3, _⟩ => rfl
    | ⟨4, _⟩ => rfl
  · intro p _
    rfl

/-- Summing a batch's field entries along the flattened axis is summing them all. -/
theorem sum_flat4 (g : A4.Idx → M) (b : Fin 4) :
    ∑ k : Fin 524288, g (flat4 b k) = ∑ i ∈ batch4 b, g i := by
  -- Position k reads (time, point, channel) = (k / 65536, k / 4 % 16384, k % 4); the inverse is the mixed-radix
  -- value (time * 16384 + point) * 4 + channel, below 8 * 16384 * 4 = 524288.
  refine Finset.sum_nbij' (fun k : Fin 524288 => flat4 b k)
    (fun i : A4.Idx => (⟨((i 1).val * 16384 + (i 2).val) * 4 + (i 3).val, by
      have h1 : (i 1).val < 8 := (i 1).isLt
      have h2 : (i 2).val < 16384 := (i 2).isLt
      have h3 : (i 3).val < 4 := (i 3).isLt
      omega⟩ : Fin 524288))
    ?_ ?_ ?_ ?_ ?_
  · intro k _
    exact Finset.mem_filter.mpr ⟨Finset.mem_univ _, rfl⟩
  · intro i _
    exact Finset.mem_univ _
  · intro k _
    have hk : k.val < 524288 := k.isLt
    refine Fin.ext ?_
    show (k.val / 65536 * 16384 + k.val / 4 % 16384) * 4 + k.val % 4 = k.val
    omega
  · intro i hi
    have hb : (i 0).val = b.val := (Finset.mem_filter.mp hi).2
    have h1 : (i 1).val < 8 := (i 1).isLt
    have h2 : (i 2).val < 16384 := (i 2).isLt
    have h3 : (i 3).val < 4 := (i 3).isLt
    refine funext fun a => Fin.ext ?_
    match a with
    | ⟨0, _⟩ => show b.val = (i 0).val; omega
    | ⟨1, _⟩ => show (((i 1).val * 16384 + (i 2).val) * 4 + (i 3).val) / 65536 = (i 1).val; omega
    | ⟨2, _⟩ => show (((i 1).val * 16384 + (i 2).val) * 4 + (i 3).val) / 4 % 16384 = (i 2).val; omega
    | ⟨3, _⟩ => show (((i 1).val * 16384 + (i 2).val) * 4 + (i 3).val) % 4 = (i 3).val; omega
  · intro k _
    rfl

/-- The neighbour entries a sum over axes 1–4 gathers at `j` are the entries of batch `j 0`. -/
theorem filter_drop5 (h : A5.ReducesTo [1, 2, 3, 4] ⟨1, ![4]⟩) (j : (⟨1, ![4]⟩ : Shape).Idx) :
    (Finset.univ.filter fun i : A5.Idx => h.drop i = j) = batch5 (j 0) := by
  -- Axis 0 is the only axis kept, so the dropped index has the one coordinate `i 0`; two indices of the
  -- rank-1 shape are equal exactly when that coordinate agrees.
  ext i
  have key : ((h.drop i) 0).val = (i 0).val := Shape.ReducesTo.drop_apply_val_of_eq h i 0 0
  simp only [batch5, Finset.mem_filter, Finset.mem_univ, true_and]
  constructor
  · intro hd
    rw [← key, hd]
  · intro hv
    funext a
    match a with
    | ⟨0, _⟩ => exact Fin.ext (key.trans hv)

end Sobolev

end
-- ==== Proof.KSum.lean ====
/-
  The result array as sums.  At the ideal instance `step` adds a point's four partial sums to the row, and a cleared row is
  zero; so the row after point n holds, in each of its four places, the sum of that partial sum over the points of n's batch up to n
  (addition on the extended reals is associative, so the running order does not matter), and row b of the result holds the sums
  over all 128 tiles of batch b.  A tile's blocks are the entries of the arrays over that tile, so each of these is the sum
  over ALL entries of batch b of the entry's term.
-/
import proofs.«146281_j26474178412703_2_alg».proof.Proof.KStep
import proofs.«146281_j26474178412703_2_alg».proof.Proof.KFinal
import proofs.«146281_j26474178412703_2_alg».proof.Proof.BatchSums

noncomputable section

open Idealize.ShloMosaic Idealize.ShloMosaic.TcCoe Idealize.SL.Sem Idealize.ShloMosaic.ValueIdx

namespace Sobolev.Kernel

open Cert.KernelIdeal Cert.KernelIdeal.Gen Sobolev

variable (m : (ℓ : Loc nD τ sig) → Buf (Elt Ideal) ℓ)

/-- Point `i`'s four partial sums (zero past the grid). -/
def upd (c : Dev nD) (i : ℕ) (k : Fin 4) : EReal :=
  if h : i < cfg0.N then tileUpd (iblk m c 0 ⟨i, h⟩) (iblk m c 1 ⟨i, h⟩) (iblk m c 2 ⟨i, h⟩) (iblk m c 3 ⟨i, h⟩) (iblk m c 4 ⟨i, h⟩) k else 0

theorem upd_of_lt (c : Dev nD) (i : ℕ) (h : i < cfg0.N) (k : Fin 4) :
    upd m c i k = tileUpd (iblk m c 0 ⟨i, h⟩) (iblk m c 1 ⟨i, h⟩) (iblk m c 2 ⟨i, h⟩) (iblk m c 3 ⟨i, h⟩) (iblk m c 4 ⟨i, h⟩) k := dif_pos h

/-- The row after point `n`: the partial sums of the points of `n`'s batch up to `n`, added up. -/
theorem rowAfter_sum (c : Dev nD) : ∀ (n : ℕ) (h : n < cfg0.N) (a b : Fin 1) (k : Fin 4),
    rowAfter m c n h (ix3 a b k) = ∑ i ∈ Finset.range (n % 128 + 1), upd m c (n / 128 * 128 + i) k
  | 0, h, a, b, k => by
    rw [rowAfter]
    refine (step_apply _ _ _ _ _ _ (ix3 a b k)).trans ?_
    show (k0_pay2 (F := Ideal)) (ix3 a b k) + tileUpd _ _ _ _ _ k = ∑ i ∈ Finset.range 1, upd m c (0 + i) k
    rw [cleared_apply, zero_add, Finset.sum_range_one]
    exact (upd_of_lt m c 0 h k).symm
  | n + 1, h, a, b, k => by
    have hN : cfg0.N = 512 := N_0
    rw [rowAfter]
    refine (step_apply _ _ _ _ _ _ (ix3 a b k)).trans ?_
    show (if (n + 1) % 128 = 0 then k0_pay2 (F := Ideal) else rowAfter m c n _) (ix3 a b k) + tileUpd _ _ _ _ _ k = _
    by_cases h0 : (n + 1) % 128 = 0
    · have e : (n + 1) / 128 * 128 + 0 = n + 1 := by omega
      rw [if_pos h0, cleared_apply, zero_add, h0]
      show _ = ∑ i ∈ Finset.range 1, upd m c ((n + 1) / 128 * 128 + i) k
      rw [Finset.sum_range_one, e]
      exact (upd_of_lt m c (n + 1) h k).symm
    · have e1 : (n + 1) % 128 = n % 128 + 1 := by omega
      have e2 : (n + 1) / 128 = n / 128 := by omega
      have e3 : n / 128 * 128 + (n % 128 + 1) = n + 1 := by omega
      rw [if_neg h0, rowAfter_sum c n _ a b k, e1, e2, Finset.sum_range_succ _ (n % 128 + 1), e3]
      exact congrArg _ (upd_of_lt m c (n + 1) h k).symm

/-- Tile `n` of batch `b`, as a grid point. -/
def pt (b : Fin 4) (n : Fin 128) : Fin cfg0.N :=
  ⟨b.val * 128 + n.val, by have : cfg0.N = 512 := N_0; have := b.isLt; have := n.isLt; omega⟩

theorem bOf_pt (b : Fin 4) (n : Fin 128) : bOf (pt b n) = b := Fin.ext (by
  show (b.val * 128 + n.val) / 128 = b.val; have := n.isLt; omega)
theorem nOf_pt (b : Fin 4) (n : Fin 128) : nOf (pt b n) = n := Fin.ext (by
  show (b.val * 128 + n.val) % 128 = n.val; have := n.isLt; omega)

/-- Row `b` of the result: the partial sums of batch `b`'s 128 tiles, added up. -/
theorem result_apply (c : Dev nD) (b : Fin 4) (k : Fin 4) :
    result m c (ix3 b ⟨0, by decide⟩ k) = ∑ n : Fin 128, tileUpd (iblk m c 0 (pt b n)) (iblk m c 1 (pt b n)) (iblk m c 2 (pt b n)) (iblk m c 3 (pt b n)) (iblk m c 4 (pt b n)) k := by
  have hN : cfg0.N = 512 := N_0
  have hb := b.isLt
  have hlt : b.val * 128 + 127 < cfg0.N := by omega
  have e0 : result m c (ix3 b ⟨0, by decide⟩ k)
      = rowAfter m c (b.val * 128 + 127) hlt (ix3 (⟨0, by decide⟩ : Fin 1) (⟨0, by decide⟩ : Fin 1) k) := rfl
  rw [e0, rowAfter_sum m c _ hlt]
  have e1 : (b.val * 128 + 127) % 128 + 1 = 128 := by omega
  have e2 : (b.val * 128 + 127) / 128 * 128 = b.val * 128 := by omega
  rw [e1, e2, Finset.sum_range]
  refine Finset.sum_congr rfl fun n _ => ?_
  exact upd_of_lt m c (b.val * 128 + n.val) (pt b n).isLt k

/-- Column 0 of the result: the squared differences of batch `b`, summed. -/
theorem result_col0 (c : Dev nD) (b : Fin 4) :
    result m c (ix3 b ⟨0, by decide⟩ ⟨0, by decide⟩) = ∑ i ∈ batch4 b, sqTerm (V m c main_arg0) (V m c main_arg1) i := by
  rw [result_apply, ← sum_tile4]
  refine Finset.sum_congr rfl fun n _ => Finset.sum_congr rfl fun y _ => ?_
  rw [iblk0_apply, iblk1_apply, bOf_pt, nOf_pt]
  rfl

/-- Column 1: the squared targets. -/
theorem result_col1 (c : Dev nD) (b : Fin 4) :
    result m c (ix3 b ⟨0, by decide⟩ ⟨1, by decide⟩) = ∑ i ∈ batch4 b, selfTerm (V m c main_arg1) i := by
  rw [result_apply, ← sum_tile4]
  refine Finset.sum_congr rfl fun n _ => Finset.sum_congr rfl fun y _ => ?_
  rw [iblk1_apply, bOf_pt, nOf_pt]
  rfl

/-- Column 2: the gradient magnitudes of the first field. -/
theorem result_col2 (c : Dev nD) (b : Fin 4) :
    result m c (ix3 b ⟨0, by decide⟩ ⟨2, by decide⟩)
      = ∑ z ∈ batch5 b, gradTerm (V m c main_arg0) (V m c main_v23) (V m c main_v16) z := by
  rw [result_apply, ← sum_tile5]
  refine Finset.sum_congr rfl fun n _ => Finset.sum_congr rfl fun z _ => ?_
  rw [iblk0_apply, iblk2_apply, iblk4_apply, bOf_pt, nOf_pt]
  rfl

/-- Column 3: the gradient magnitudes of the second field. -/
theorem result_col3 (c : Dev nD) (b : Fin 4) :
    result m c (ix3 b ⟨0, by decide⟩ ⟨3, by decide⟩)
      = ∑ z ∈ batch5 b, gradTerm (V m c main_arg1) (V m c main_v30) (V m c main_v16) z := by
  rw [result_apply, ← sum_tile5]
  refine Finset.sum_congr rfl fun n _ => Finset.sum_congr rfl fun z _ => ?_
  rw [iblk1_apply, iblk3_apply, iblk4_apply, bOf_pt, nOf_pt]
  rfl

end Sobolev.Kernel

end
-- ==== Proof.Tail.lean ====
/-
  From the four per-batch sums to the loss.  With s0 = sum of squared differences, s1 = sum of squared targets,
  s2 and s3 = the two sums of gradient magnitudes (each a vector over the 4 batches), the loss is

      mean_b ( sqrt s0 / max (sqrt s1) eps )  +  0.1 * mean_b ( |s2/2^23 - s3/2^23| / max (s3/2^23) eps ),

  written once, operation by operation, in the host's vocabulary.  Both programs end with exactly these operations, so
  each one's result is this function of its own four sums and the two results agree as soon as the sums do.
-/
import Idealize.ShloMosaic.PureOps
import Idealize.ShloMosaic.PureOps.Ideal

noncomputable section

namespace Sobolev

open Idealize.ShloMosaic

abbrev V4 : Shape := ⟨1, ![4]⟩
abbrev V0 : Shape := ⟨0, ![]⟩

variable {F : FTy → Type} [FloatOps F]

/-- The relative-L2 term: the mean over the batches of sqrt s0 / max (sqrt s1) eps. -/
def relL2 (hb : V0.BroadcastsInDim V4 (![] : Fin 0 → Fin V4.rank)) (hr : V4.ReducesTo [0] V0) (h0 : 0 < V0.numel)
    (s0 s1 : FVec F V4 .f32) : FVec F V0 .f32 :=
  Host.divf
    (Host.reduceAdd
      (Host.divf (Host.sqrt s0)
        (maximumf (Host.sqrt s1) (broadcastInDim V4 ![] hb (constant V0 .f32 0x322BCC77#32))))
      (constant V0 .f32 0x00000000#32) hr h0)
    (constant V0 .f32 0x40800000#32)

/-- The gradient term: the mean over the batches of |g2 - g3| / max g3 eps, with g = s / 2^23 the mean magnitude. -/
def gradErr (hb : V0.BroadcastsInDim V4 (![] : Fin 0 → Fin V4.rank)) (hr : V4.ReducesTo [0] V0) (h0 : 0 < V0.numel)
    (s2 s3 : FVec F V4 .f32) : FVec F V0 .f32 :=
  Host.divf
    (Host.reduceAdd
      (Host.divf
        (Host.absf (subf (Host.divf s2 (broadcastInDim V4 ![] hb (constant V0 .f32 0x4B000000#32)))
          (Host.divf s3 (broadcastInDim V4 ![] hb (constant V0 .f32 0x4B000000#32)))))
        (maximumf (Host.divf s3 (broadcastInDim V4 ![] hb (constant V0 .f32 0x4B000000#32)))
          (broadcastInDim V4 ![] hb (constant V0 .f32 0x322BCC77#32))))
      (constant V0 .f32 0x00000000#32) hr h0)
    (constant V0 .f32 0x40800000#32)

/-- The loss: relative L2 plus a tenth of the gradient error. -/
def loss (hb : V0.BroadcastsInDim V4 (![] : Fin 0 → Fin V4.rank)) (hr : V4.ReducesTo [0] V0) (h0 : 0 < V0.numel)
    (s0 s1 s2 s3 : FVec F V4 .f32) : FVec F V0 .f32 :=
  addf (relL2 hb hr h0 s0 s1) (mulf (constant V0 .f32 0x3DCCCCCD#32) (gradErr hb hr h0 s2 s3))

end Sobolev

end
-- ==== Proof.KHost.lean ====
/-
  The kernel program's host operations around its one custom call.  Before the call the host computes the two gathered
  neighbour arrays and the neighbour distances, by the same operations the reference uses; after it, the host cuts the
  call's 4x1x4 result into four columns (one number per batch each) and applies the loss function to them.
-/
import proofs.«146281_j26474178412703_2_alg».proof.Proof.Gen.KernelIdeal.Frame
import proofs.«146281_j26474178412703_2_alg».proof.Proof.Gen.ReferenceIdeal.Read
import proofs.«146281_j26474178412703_2_alg».proof.Proof.Tail
import Idealize.ShloMosaic.Lib.Pipeline.Value
import Idealize.ShloMosaic.Lib.StableHlo.Run
import Idealize.ShloMosaic.Lib.Tactic
import Idealize.ShloMosaic.Lib.ValueIdx

noncomputable section

namespace Sobolev.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Column `k` of the call's 4x1x4 result: one number per batch. -/
def col (O : S4x1x4.Idx → EReal) (k : Fin 4) : FVec Ideal S4 .f32 := fun i => O (ix3 (i 0) ⟨0, by decide⟩ k)

/-- Flattening the 4x1x4 result to 4x4, cutting column `k` out as a 4x1 slice and flattening that to a vector of 4
    reads the result at (batch, 0, k). -/
theorem col_read (O : S4x1x4.Idx → EReal) (k : Fin 4) (off : Fin S4x4.rank → Nat) (h0 : off 0 = 0) (h1 : off 1 = k.val)
    (hs : S4x4.Slices off S4x1) :
    shapeCast S4 (extractStridedSlice S4x1 off (shapeCast S4x4 O shapeCasts_S4x1x4_S4x4) hs) shapeCasts_S4x1_S4 = col O k := by
  funext i
  have hi : (i 0).val < 4 := (i 0).isLt
  have hk : k.val < 4 := k.isLt
  refine (shapeCast_apply _ shapeCasts_S4x1_S4 i (ix2 (i 0) (⟨0, by decide⟩ : Fin 1)) ?_).trans ?_
  · rw [Shape.rowMajor_val_two, Shape.rowMajor_val_one]
    show (i 0).val * 1 + 0 = (i 0).val
    omega
  refine (extractStridedSlice_apply off _ hs _ (ix2 (i 0) k) (fun a => ?_)).trans ?_
  · match a with
    | ⟨0, _⟩ => show (i 0).val = off 0 + (i 0).val; omega
    | ⟨1, _⟩ => show k.val = off 1 + 0; omega
  refine (shapeCast_apply O shapeCasts_S4x1x4_S4x4 (ix2 (i 0) k) (ix3 (i 0) (⟨0, by decide⟩ : Fin 1) k) ?_).trans ?_
  · rw [Shape.rowMajor_val_three, Shape.rowMajor_val_two]
    show ((i 0).val * 1 + 0) * 4 + k.val = (i 0).val * 4 + k.val
    omega
  rfl

set_option maxHeartbeats 1000000 in
/-- The host operations after the call, from any buffer contents `W`: the result is the loss function of the four columns
    of the call's result buffer. -/
theorem tail_of (W : Valuation τ sig (Elt Ideal)) :
    StableHlo.after hostOps1 W (Proc.devRef .tc main_v60)
      = Sobolev.loss bcast_S_S4 reducesTo_S4_S_d0 h_S_ (col (W (Proc.devRef .tc main_v31)) 0) (col (W (Proc.devRef .tc main_v31)) 1)
          (col (W (Proc.devRef .tc main_v31)) 2) (col (W (Proc.devRef .tc main_v31)) 3) := by
  after_results_simp
  rw [← col_read (W (Proc.devRef .tc main_v31)) 0 ![0, 0] rfl rfl slices_S4x4_S4x1_0_0,
    ← col_read (W (Proc.devRef .tc main_v31)) 1 ![0, 1] rfl rfl slices_S4x4_S4x1_0_1,
    ← col_read (W (Proc.devRef .tc main_v31)) 2 ![0, 2] rfl rfl slices_S4x4_S4x1_0_2,
    ← col_read (W (Proc.devRef .tc main_v31)) 3 ![0, 3] rfl rfl slices_S4x4_S4x1_0_3]
  rfl

/-- The kernel program's result: the loss function of the four columns of what the call leaves in its result array. -/
theorem tail_eq (c : Dev nD) : Pipeline.afterTail₀ cfgs (dats m) 0 (Gen.V0 m) [hostOps1] c main_v60
    = Sobolev.loss bcast_S_S4 reducesTo_S4_S_d0 h_S_ (col ((dats m 0 c).arrAt 5 cfg0.N) 0) (col ((dats m 0 c).arrAt 5 cfg0.N) 1)
        (col ((dats m 0 c).arrAt 5 cfg0.N) 2) (col ((dats m 0 c).arrAt 5 cfg0.N) 3) := by
  unfold Pipeline.afterTail₀
  have hO : Pipeline.withArrays (cfgs 0).spec c (Gen.V0 m c) (fun w => (dats m 0 c).arrAt w (cfgs 0).N) (Proc.devRef .tc main_v31)
      = (dats m 0 c).arrAt 5 cfg0.N := Pipeline.withArrays_arr spec0 launch0.win.arr_inj c _ _ 5
  rw [← hO]
  exact tail_of _

end Sobolev.Kernel

end
-- ==== Proof.KHostPre.lean ====
/-
  What the host computes before the region.  Both programs gather the neighbours' field values, and compute the
  neighbours' distances, by the same host operations on the same arguments; read one operation at a time, the kernel
  program's prefix leaves in those three buffers exactly the reference program's values of the arguments.
-/
import proofs.«146281_j26474178412703_2_alg».proof.Proof.Gen.KernelIdeal.Frame
import proofs.«146281_j26474178412703_2_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Sobolev.Kernel

open Cert.KernelIdeal Cert.KernelIdeal.Gen

variable (m : (ℓ : Loc nD τ sig) → Buf (Elt Ideal) ℓ)

/-- The first field's neighbour values: the gather of the first argument at the wrapped neighbour indices. -/
theorem V_v23 (c : Dev nD) : V m c main_v23 = Cert.ReferenceIdeal.Read.val_main_v33 (F := Ideal) (m ((c.tc : Thread nD τ).loc main_arg0)) (m ((c.tc : Thread nD τ).loc main_arg2)) := by
  dsimp only [Gen.V, Gen.V0]
  simp only [Gen.hostOps0, List.flatten_cons, List.flatten_nil, List.append_nil, List.cons_append, List.nil_append]
  after_results_simp
  rfl

/-- The second field's neighbour values: the gather of the second argument at the wrapped neighbour indices. -/
theorem V_v30 (c : Dev nD) : V m c main_v30 = Cert.ReferenceIdeal.Read.val_main_v67 (F := Ideal) (m ((c.tc : Thread nD τ).loc main_arg1)) (m ((c.tc : Thread nD τ).loc main_arg2)) := by
  dsimp only [Gen.V, Gen.V0]
  simp only [Gen.hostOps0, List.flatten_cons, List.flatten_nil, List.append_nil, List.cons_append, List.nil_append]
  after_results_simp
  rfl

/-- The neighbours' distances: the norm of the gathered position differences, kept away from zero. -/
theorem V_v16 (c : Dev nD) : V m c main_v16 = Cert.ReferenceIdeal.Read.val_main_v26 (F := Ideal) (m ((c.tc : Thread nD τ).loc main_arg2)) (m ((c.tc : Thread nD τ).loc main_arg3)) := by
  dsimp only [Gen.V, Gen.V0]
  simp only [Gen.hostOps0, List.flatten_cons, List.flatten_nil, List.append_nil, List.cons_append, List.nil_append]
  after_results_simp
  rfl

end Sobolev.Kernel

end
-- ==== Proof.RefSums.lean ====
/-
  The reference program's four per-batch sums, read at the ideal values.  The reference flattens each field array to
  [4, 524288] and sums the squared entries along the flattened axis; it sums the gradient magnitudes over the four
  inner axes of the [4, 8, 16384, 16, 4] neighbour array at once.  Each is the sum over all entries of one batch of
  that entry's term; the last operations of the program are the loss function of these four sums.
-/
import proofs.«146281_j26474178412703_2_alg».proof.Proof.Gen.ReferenceIdeal.Read
import proofs.«146281_j26474178412703_2_alg».proof.Proof.BatchSums
import proofs.«146281_j26474178412703_2_alg».proof.Proof.Spec
import proofs.«146281_j26474178412703_2_alg».proof.Proof.Tail
import Idealize.ShloMosaic.PureOps.Ideal.Laws

noncomputable section

namespace Sobolev.Ref

open Cert.ReferenceIdeal Cert.ReferenceIdeal.Gen Cert.ReferenceIdeal.Read Idealize.ShloMosaic Idealize.ShloMosaic.ValueIdx Sobolev

/-- The reference's result is the loss function of its four per-batch sums: the operations after the sums are exactly
    the ones the loss function is written with. -/
theorem result_eq_loss {F : FTy → Type} [FloatOps F] (x0 x1 : (⟨S4x8x16384x4, .f32⟩ : BufTy).Contents (Elt F))
    (x2 : (⟨S4x16384x16, .i32⟩ : BufTy).Contents (Elt F)) (x3 : (⟨S4x16384x3, .f32⟩ : BufTy).Contents (Elt F)) :
    val_main_v86 (F := F) x0 x1 x2 x3
      = Sobolev.loss bcast_S_S4 reducesTo_S4_S_d0 h_S_ (val_main_call0_v1 (F := F) x0 x1) (val_main_call1_v1 (F := F) x1)
          (val_main_v41 (F := F) x0 x2 x3) (val_main_v75 (F := F) x1 x2 x3) := rfl

/-- Position `k` of row `b` of the flattened array is entry `flat4 b k` of the field array. -/
theorem idx_v0_flat (b : Fin 4) (k : Fin 524288) : idx_main_v0 (idx_main_call0_v1 (ix1 b) k) = flat4 b k := by
  funext a
  have hb := b.isLt
  have hk := k.isLt
  match a with
  | ⟨0, _⟩ => exact Fin.ext (by show (b.val * 524288 + k.val) / 524288 = b.val; omega)
  | ⟨1, _⟩ => exact Fin.ext (by show (b.val * 524288 + k.val) / 65536 % 8 = k.val / 65536; omega)
  | ⟨2, _⟩ => exact Fin.ext (by show (b.val * 524288 + k.val) / 4 % 16384 = k.val / 4 % 16384; omega)
  | ⟨3, _⟩ => exact Fin.ext (by show (b.val * 524288 + k.val) % 4 = k.val % 4; omega)

/-- The sum of squared differences of batch `b`: the reference's first flattened sum. -/
theorem call0_eq_sum (x0 x1 : (⟨S4x8x16384x4, .f32⟩ : BufTy).Contents (Elt Ideal)) (b : Fin 4) :
    val_main_call0_v1 (F := Ideal) x0 x1 (ix1 b) = ∑ i ∈ batch4 b, sqTerm x0 x1 i := by
  rw [val_main_call0_v1_apply, ← sum_flat4 (fun i => sqTerm x0 x1 i) b]
  have h0 : (val_main_call0_cst (F := Ideal)) (Shape.Idx.first h_S_) = 0 := Ideal.ofBits_zero_f32
  rw [h0, zero_add]
  refine Finset.sum_congr rfl fun k _ => ?_
  rw [val_main_call0_v0_apply, val_main_v2_apply, val_main_v0_apply, val_main_v1_apply]
  show (x0 (idx_main_v0 (idx_main_call0_v1 (ix1 b) k)) - x1 (idx_main_v0 (idx_main_call0_v1 (ix1 b) k)))
      * (x0 (idx_main_v0 (idx_main_call0_v1 (ix1 b) k)) - x1 (idx_main_v0 (idx_main_call0_v1 (ix1 b) k))) = _
  rw [idx_v0_flat]
  rfl

/-- The same position read through the second field array's reshape. -/
theorem idx_v1_flat (b : Fin 4) (k : Fin 524288) : idx_main_v1 (idx_main_call1_v1 (ix1 b) k) = flat4 b k := by
  funext a
  have hb := b.isLt
  have hk := k.isLt
  match a with
  | ⟨0, _⟩ => exact Fin.ext (by show (b.val * 524288 + k.val) / 524288 = b.val; omega)
  | ⟨1, _⟩ => exact Fin.ext (by show (b.val * 524288 + k.val) / 65536 % 8 = k.val / 65536; omega)
  | ⟨2, _⟩ => exact Fin.ext (by show (b.val * 524288 + k.val) / 4 % 16384 = k.val / 4 % 16384; omega)
  | ⟨3, _⟩ => exact Fin.ext (by show (b.val * 524288 + k.val) % 4 = k.val % 4; omega)

/-- The sum of squared targets of batch `b`: the reference's second flattened sum. -/
theorem call1_eq_sum (x1 : (⟨S4x8x16384x4, .f32⟩ : BufTy).Contents (Elt Ideal)) (b : Fin 4) :
    val_main_call1_v1 (F := Ideal) x1 (ix1 b) = ∑ i ∈ batch4 b, selfTerm x1 i := by
  rw [val_main_call1_v1_apply, ← sum_flat4 (fun i => selfTerm x1 i) b]
  have h0 : (val_main_call1_cst (F := Ideal)) (Shape.Idx.first h_S_) = 0 := Ideal.ofBits_zero_f32
  rw [h0, zero_add]
  refine Finset.sum_congr rfl fun k _ => ?_
  rw [val_main_call1_v0_apply, val_main_v1_apply, idx_v1_flat]
  rfl

/-- The program computes the neighbour distances twice, by the same operations of the same arguments. -/
theorem dist_twice {F : FTy → Type} [FloatOps F] (x2 : (⟨S4x16384x16, .i32⟩ : BufTy).Contents (Elt F))
    (x3 : (⟨S4x16384x3, .f32⟩ : BufTy).Contents (Elt F)) : val_main_v60 (F := F) x2 x3 = val_main_v26 (F := F) x2 x3 := rfl

/-- The two broadcasts that spread a field array over the neighbour axis read, at a neighbour entry, the field entry
    under it. -/
theorem idx_under0 (z : S4x8x16384x16x4.Idx) : idx_main_v34 (idx_main_v35 z) = under z := by
  funext a
  match a with
  | ⟨0, _⟩ => rfl
  | ⟨1, _⟩ => rfl
  | ⟨2, _⟩ => rfl
  | ⟨3, _⟩ => rfl

theorem idx_under1 (z : S4x8x16384x16x4.Idx) : idx_main_v68 (idx_main_v69 z) = under z := by
  funext a
  match a with
  | ⟨0, _⟩ => rfl
  | ⟨1, _⟩ => rfl
  | ⟨2, _⟩ => rfl
  | ⟨3, _⟩ => rfl

/-- The two broadcasts that spread the distance array over time and channel read, at a neighbour entry, its distance. -/
theorem idx_distAt0 (z : S4x8x16384x16x4.Idx) : idx_main_v38 (idx_main_v39 z) = distAt z := by
  funext a
  match a with
  | ⟨0, _⟩ => rfl
  | ⟨1, _⟩ => rfl
  | ⟨2, _⟩ => rfl

theorem idx_distAt1 (z : S4x8x16384x16x4.Idx) : idx_main_v72 (idx_main_v73 z) = distAt z := by
  funext a
  match a with
  | ⟨0, _⟩ => rfl
  | ⟨1, _⟩ => rfl
  | ⟨2, _⟩ => rfl

/-- The sum of the prediction's gradient magnitudes over batch `b`: a sum over the four inner axes of the neighbour
    array at once, which gathers exactly the neighbour entries of batch `b`. -/
theorem v41_eq_sum (x0 : (⟨S4x8x16384x4, .f32⟩ : BufTy).Contents (Elt Ideal))
    (x2 : (⟨S4x16384x16, .i32⟩ : BufTy).Contents (Elt Ideal)) (x3 : (⟨S4x16384x3, .f32⟩ : BufTy).Contents (Elt Ideal)) (b : Fin 4) :
    val_main_v41 (F := Ideal) x0 x2 x3 (ix1 b)
      = ∑ z ∈ batch5 b, gradTerm x0 (val_main_v33 (F := Ideal) x0 x2) (val_main_v26 (F := Ideal) x2 x3) z := by
  unfold val_main_v41
  simp only [Host.reduceAdd, Ideal.hostReduceAdd_def]
  unfold Ideal.hostReduceAdd
  have h0 : (val_main_cst_8 (F := Ideal)) (Shape.Idx.first h_S_) = 0 := Ideal.ofBits_zero_f32
  rw [h0, zero_add]
  refine Finset.sum_congr (filter_drop5 reducesTo_S4x8x16384x16x4_S4_d1_2_3_4 (ix1 b)) fun z _ => ?_
  rw [val_main_v40_apply, val_main_v37_apply, val_main_v36_apply, val_main_v35_apply, val_main_v34_apply,
    val_main_v39_apply, val_main_v38_apply, idx_under0, idx_distAt0]
  rfl

/-- The sum of the target's gradient magnitudes over batch `b`, likewise. -/
theorem v75_eq_sum (x1 : (⟨S4x8x16384x4, .f32⟩ : BufTy).Contents (Elt Ideal))
    (x2 : (⟨S4x16384x16, .i32⟩ : BufTy).Contents (Elt Ideal)) (x3 : (⟨S4x16384x3, .f32⟩ : BufTy).Contents (Elt Ideal)) (b : Fin 4) :
    val_main_v75 (F := Ideal) x1 x2 x3 (ix1 b)
      = ∑ z ∈ batch5 b, gradTerm x1 (val_main_v67 (F := Ideal) x1 x2) (val_main_v26 (F := Ideal) x2 x3) z := by
  unfold val_main_v75
  simp only [Host.reduceAdd, Ideal.hostReduceAdd_def]
  unfold Ideal.hostReduceAdd
  have h0 : (val_main_cst_17 (F := Ideal)) (Shape.Idx.first h_S_) = 0 := Ideal.ofBits_zero_f32
  rw [h0, zero_add]
  refine Finset.sum_congr (filter_drop5 reducesTo_S4x8x16384x16x4_S4_d1_2_3_4 (ix1 b)) fun z _ => ?_
  rw [val_main_v74_apply, val_main_v71_apply, val_main_v70_apply, val_main_v69_apply, val_main_v68_apply,
    val_main_v73_apply, val_main_v72_apply, idx_under1, idx_distAt1, dist_twice]
  rfl

end Sobolev.Ref

end
-- ==== Proof.lean ====
/-
  The Sobolev loss: a relative-L2 term and a k-nearest-neighbour gradient term, each a mean over 4 batches of a
  quotient of per-batch sums.  The kernel accumulates the four per-batch sums tile by tile over a 4 × 128 grid (128
  points per tile) into a 4 × 1 × 4 array and finishes on the host; the reference sums the flattened arrays at once.

  Both programs gather the neighbour values and compute the neighbour distances by the same host operations, and both
  end with the same host operations from the four sums to the scalar (`Sobolev.loss`).  In between, each of the four
  numbers of batch b is, on either side, the sum over ALL entries of batch b of the entry's term: the kernel's running
  row after the batch's last tile (the extended reals' addition is commutative and associative, so neither the tiling nor
  the order matters), the reference's flattened or four-axis sum.  No finiteness is used: the precondition is never
  opened.

  The three frames are the generated ones (the reference's is its generated run with the result dropped); the
  idealization rewrote nothing, so `preserves` is trivial.
-/
import proofs.«146281_j26474178412703_2_alg».proof.Defs
import proofs.«146281_j26474178412703_2_alg».proof.Proof.Gen.Kernel
import proofs.«146281_j26474178412703_2_alg».proof.Proof.Gen.Kernel.Frame
import proofs.«146281_j26474178412703_2_alg».proof.Proof.Gen.KernelIdeal
import proofs.«146281_j26474178412703_2_alg».proof.Proof.Gen.KernelIdeal.Frame
import proofs.«146281_j26474178412703_2_alg».proof.Proof.Gen.ReferenceIdeal
import proofs.«146281_j26474178412703_2_alg».proof.Proof.Gen.ReferenceIdeal.Run
import proofs.«146281_j26474178412703_2_alg».proof.Proof.Gen.ReferenceIdeal.Read
import proofs.«146281_j26474178412703_2_alg».proof.Proof.Gen.Pre_finite_inputs
import proofs.«146281_j26474178412703_2_alg».proof.Proof.KSum
import proofs.«146281_j26474178412703_2_alg».proof.Proof.KHost
import proofs.«146281_j26474178412703_2_alg».proof.Proof.KHostPre
import proofs.«146281_j26474178412703_2_alg».proof.Proof.RefSums
import Idealize.ShloMosaic.Adequacy
import Idealize.ShloMosaic.Init

noncomputable section

open Idealize.ShloMosaic Idealize.ShloMosaic.TcCoe Idealize.SL.Sem Idealize.ShloMosaic.ValueIdx

/-! ## The kernel's result is the loss of the per-batch sums of its arguments -/

namespace Sobolev.Kernel

open Cert.KernelIdeal Cert.KernelIdeal.Gen Sobolev

variable (m : (ℓ : Loc nD τ sig) → Buf (Elt Ideal) ℓ) (ρ : Dev nD → PrngReg)

/-- The scalar the kernel's @main returns is the reference's function of the four argument arrays: column k of the result
    array is the reference's k-th per-batch sum, and the operations after it are the same. -/
theorem value_eq (c : Dev nD) :
    Pipeline.afterTail₀ cfgs (dats m) 0 (Gen.V0 m) [hostOps1] c main_v60
      = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) := by
  rw [tail_eq, final, Sobolev.Ref.result_eq_loss]
  have c0 : col (result m c) ⟨0, by decide⟩ = Cert.ReferenceIdeal.Read.val_main_call0_v1 (F := Ideal) (m ((c.tc : Thread nD τ).loc main_arg0)) (m ((c.tc : Thread nD τ).loc main_arg1)) := by
    funext i
    obtain ⟨b, rfl⟩ : ∃ b : Fin 4, i = ix1 b := ⟨i 0, eq_ix1 i⟩
    show result m c (ix3 b ⟨0, by decide⟩ ⟨0, by decide⟩) = _
    rw [result_col0, Sobolev.Ref.call0_eq_sum, V_main_arg0, V_main_arg1]
  have c1 : col (result m c) ⟨1, by decide⟩ = Cert.ReferenceIdeal.Read.val_main_call1_v1 (F := Ideal) (m ((c.tc : Thread nD τ).loc main_arg1)) := by
    funext i
    obtain ⟨b, rfl⟩ : ∃ b : Fin 4, i = ix1 b := ⟨i 0, eq_ix1 i⟩
    show result m c (ix3 b ⟨0, by decide⟩ ⟨1, by decide⟩) = _
    rw [result_col1, Sobolev.Ref.call1_eq_sum, V_main_arg1]
  have c2 : col (result m c) ⟨2, by decide⟩ = Cert.ReferenceIdeal.Read.val_main_v41 (F := Ideal) (m ((c.tc : Thread nD τ).loc main_arg0)) (m ((c.tc : Thread nD τ).loc main_arg2)) (m ((c.tc : Thread nD τ).loc main_arg3)) := by
    funext i
    obtain ⟨b, rfl⟩ : ∃ b : Fin 4, i = ix1 b := ⟨i 0, eq_ix1 i⟩
    show result m c (ix3 b ⟨0, by decide⟩ ⟨2, by decide⟩) = _
    rw [result_col2, Sobolev.Ref.v41_eq_sum, V_main_arg0, V_v23, V_v16]
  have c3 : col (result m c) ⟨3, by decide⟩ = Cert.ReferenceIdeal.Read.val_main_v75 (F := Ideal) (m ((c.tc : Thread nD τ).loc main_arg1)) (m ((c.tc : Thread nD τ).loc main_arg2)) (m ((c.tc : Thread nD τ).loc main_arg3)) := by
    funext i
    obtain ⟨b, rfl⟩ : ∃ b : Fin 4, i = ix1 b := ⟨i 0, eq_ix1 i⟩
    show result m c (ix3 b ⟨0, by decide⟩ ⟨3, by decide⟩) = _
    rw [result_col3, Sobolev.Ref.v75_eq_sum, V_main_arg1, V_v30, V_v16]
  show Sobolev.loss _ _ _ (col (result m c) ⟨0, by decide⟩) (col (result m c) ⟨1, by decide⟩) (col (result m c) ⟨2, by decide⟩)
      (col (result m c) ⟨3, by decide⟩) = _
  rw [c0, c1, c2, c3]

/-- The kernel's run, read: the returned scalar at the reference's function of the arguments, the arguments unchanged. -/
theorem run : θ_run defs (onTc (τ := τ) (main (F := Ideal))) ⟨m, fun _ => 0, ρ⟩ fun r => ∀ c : Dev nD,
      r.2.mem ((c.tc : Thread nD τ).loc main_v60)
        = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v60 (Pipeline.mem_restRefs_of main_v60 (by decide) (by decide))).trans (value_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Sobolev.Kernel

/-! ## The claims -/

namespace Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the returned scalar at one function of arguments that agree. -/
theorem algebraic : Cert.algebraic_KernelIdeal_ReferenceIdeal := by
  intro m ρ m' ρ' _ hagree
  refine ⟨_, Sobolev.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
